-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S80000x256 : Shape := ⟨2, ![80000, 256]⟩
abbrev S2x1600000 : Shape := ⟨2, ![2, 1600000]⟩
abbrev S2x1000000 : Shape := ⟨2, ![2, 1000000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S80000x256 : S_.BroadcastsInDim S80000x256 (![] : Fin 0 → Fin S80000x256.rank)
  reducesTo_S80000x256_S_d0_1 : S80000x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S256x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S20000x256 .f32) (main_arg1 : FVec F S80000x256 .f32) (main_arg2 : IVec S2x1600000 32) (main_arg3 : IVec S2x1000000 32) (main_arg4 : FVec F S256x128 .f32) (main_arg5 : FVec F S128 .f32) (main_arg6 : FVec F S256x128 .f32) (main_arg7 : FVec F S128 .f32) (main_arg8 : FVec F S128x128 .f32) (main_arg9 : FVec F S128 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S80000x256 .f32 := Host.absf main_arg1
  let main_cst_0 : FVec F S_ .f32 := constant S_ .f32 0x7F800000#32
  let main_v5 : FVec F S80000x256 .f32 := broadcastInDim S80000x256 ![] bcast_S_S80000x256 main_cst_0
  let main_v6 : IVec S80000x256 1 := cmpf .olt main_v4 main_v5
  let main_c_1 : IVec S_ 1 := constantI S_ 1 1#1
  let main_v7 : IVec S_ 1 := (fun x v => Host.reduce IntOp.andi x v reducesTo_S80000x256_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S20000x256 : Shape := ⟨2, ![20000, 256]⟩
abbrev S80000x256 : Shape := ⟨2, ![80000, 256]⟩
abbrev S2x1600000 : Shape := ⟨2, ![2, 1600000]⟩
abbrev S2x1000000 : Shape := ⟨2, ![2, 1000000]⟩
abbrev S256x128 : Shape := ⟨2, ![256, 128]⟩
abbrev S128 : Shape := ⟨1, ![128]⟩
abbrev S128x128 : Shape := ⟨2, ![128, 128]⟩
abbrev S1x128 : Shape := ⟨2, ![1, 128]⟩
abbrev S20000x128 : Shape := ⟨2, ![20000, 128]⟩
abbrev S4000x256 : Shape := ⟨2, ![4000, 256]⟩
abbrev S4000x128 : Shape := ⟨2, ![4000, 128]⟩
abbrev S80000x128 : Shape := ⟨2, ![80000, 128]⟩
abbrev S100000x128 : Shape := ⟨2, ![100000, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S4000x1 : Shape := ⟨2, ![4000, 1]⟩
abbrev S1x1000000 : Shape := ⟨2, ![1, 1000000]⟩
abbrev S1000000 : Shape := ⟨1, ![1000000]⟩
abbrev S1000000x1 : Shape := ⟨2, ![1000000, 1]⟩
abbrev S1000000x128 : Shape := ⟨2, ![1000000, 128]⟩

abbrev nBuf : Space → Nat
  | .hbm => 105
  | .vmem => 23
  | .smem => 0
  | _ => 0

abbrev bufTy : (tb : Table) → Fin (tcTables nBuf tb) → BufTy
  | .hbm, ⟨0, _⟩ => ⟨S20000x256, .f32⟩
  | .hbm, ⟨1, _⟩ => ⟨S80000x256, .f32⟩
  | .hbm, ⟨2, _⟩ => ⟨S2x1600000, .i32⟩
  | .hbm, ⟨3, _⟩ => ⟨S2x1000000, .i32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S20000x128, .f32⟩
  | .hbm, ⟨14, _⟩ => ⟨S80000x128, .f32⟩
  | .hbm, ⟨15, _⟩ => ⟨S100000x128, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S_, .f32⟩
  | .hbm, ⟨31, _⟩ => ⟨S1600000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000, .f32⟩
  | .hbm, ⟨55, _⟩ => ⟨S1600000, .f32⟩
  | .hbm, ⟨56, _⟩ => ⟨S1600000x1, .f32⟩
  | .hbm, ⟨57, _⟩ => ⟨S100000x128, .bf16⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .bf16⟩
  | .hbm, ⟨67, _⟩ => ⟨S1600000x128, .f32⟩
  | .hbm, ⟨68, _⟩ => ⟨S1600000x128, .f32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000, .f32⟩
  | .hbm, ⟨75, _⟩ => ⟨S100000x1, .f32⟩
  | .hbm, ⟨76, _⟩ => ⟨S100000x128, .f32⟩
  | .hbm, ⟨77, _⟩ => ⟨S1x1000000, .i32⟩
  | .hbm, ⟨78, _⟩ => ⟨S1000000, .i32⟩
  | .hbm, ⟨79, _⟩ => ⟨S1x1000000, .i32⟩
  | .hbm, ⟨80, _⟩ => ⟨S1000000, .i32⟩
  | .hbm, ⟨81, _⟩ => ⟨S100000x128, .bf16⟩
  | .hbm, ⟨82, _⟩ => ⟨S_, .i32⟩
  | .hbm, ⟨83, _⟩ => ⟨S1000000, .i32⟩
  | .hbm, ⟨84, _⟩ => ⟨S1000000, .i1⟩
  | .hbm, ⟨85, _⟩ => ⟨S_, .i32⟩
  | .hbm, ⟨86, _⟩ => ⟨S1000000, .i32⟩
  | .hbm, ⟨87, _⟩ => ⟨S1000000, .i32⟩
  | .hbm, ⟨88, _⟩ => ⟨S1000000, .i32⟩
  | .hbm, ⟨89, _⟩ => ⟨S1000000x1, .i32⟩
  | .hbm, ⟨90, _⟩ => ⟨S1000000x128, .bf16⟩
  | .hbm, ⟨91, _⟩ => ⟨S1000000x128, .f32⟩
  | .hbm, ⟨92, _⟩ => ⟨S_, .i32⟩
  | .hbm, ⟨93, _⟩ => ⟨S1000000, .i32⟩
  | .hbm, ⟨94, _⟩ => ⟨S1000000, .i1⟩
  | .hbm, ⟨95, _⟩ => ⟨S_, .i32⟩
  | .hbm, ⟨96, _⟩ => ⟨S1000000, .i32⟩
  | .hbm, ⟨97, _⟩ => ⟨S1000000, .i32⟩
  | .hbm, ⟨98, _⟩ => ⟨S1000000, .i32⟩
  | .hbm, ⟨99, _⟩ => ⟨S1000000x1, .i32⟩
  | .hbm, ⟨100, _⟩ => ⟨S1000000x128, .bf16⟩
  | .hbm, ⟨101, _⟩ => ⟨S1000000x128, .f32⟩
  | .hbm, ⟨102, _⟩ => ⟨S1000000x128, .f32⟩
  | .hbm, ⟨103, _⟩ => ⟨S_, .f32⟩
  | .hbm, ⟨104, _⟩ => ⟨S1000000, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S1x128, .f32⟩
  | .local _ .vmem, ⟨4, _⟩ => ⟨S128x128, .f32⟩
  | .local _ .vmem, ⟨5, _⟩ => ⟨S4000x128, .f32⟩
  | .local _ .vmem, ⟨6, _⟩ => ⟨S4000x128, .f32⟩
  | .local _ .vmem, ⟨7, _⟩ => ⟨S4000x256, .f32⟩
  | .local _ .vmem, ⟨8, _⟩ => ⟨S4000x256, .f32⟩
  | .local _ .vmem, ⟨9, _⟩ => ⟨S256x128, .f32⟩
  | .local _ .vmem, ⟨10, _⟩ => ⟨S1x128, .f32⟩
  | .local _ .vmem, ⟨11, _⟩ => ⟨S128x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x1, .f32⟩
  | .local _ .vmem, ⟨19, _⟩ => ⟨S4000x1, .f32⟩
  | .local _ .vmem, ⟨20, _⟩ => ⟨S1x128, .f32⟩
  | .local _ .vmem, ⟨21, _⟩ => ⟨S4000x128, .f32⟩
  | .local _ .vmem, ⟨22, _⟩ => ⟨S4000x128, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_10 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_12 : Ref sig .tc := ⟨.hbm, 92, rfl⟩
abbrev main_v68 : Ref sig .tc := ⟨.hbm, 93, rfl⟩
abbrev main_v69 : Ref sig .tc := ⟨.hbm, 94, rfl⟩
abbrev main_c_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S128_S1x128 : S128.ShapeCasts S1x128
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  concatenates_S20000x128_S80000x128_S100000x128_d0 : Shape.Concatenates [S20000x128, S80000x128] S100000x128 0
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x128_S1000000_d1 : S1000000x128.ReducesTo [1] S1000000
  h_S_ : 0 < S_.numel
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S1000000x1_S1000000x128_1_0_n_n_0_1_1128_wf : GatherDims.WF S100000x128 S1000000x1 S1000000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S20000x256.size a
  hwx0_0 : ∀ i : grid0.Coords, EltTy.bits .f32 = 32 ∨ (Rect.block (s := S20000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S20000x128.size a
  hwx0_4 : ∀ i : grid0.Coords, EltTy.bits .f32 = 32 ∨ (Rect.block (s := S20000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S80000x256.size a
  hwx1_0 : ∀ i : grid1.Coords, EltTy.bits .f32 = 32 ∨ (Rect.block (s := S80000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S80000x128.size a
  hwx1_4 : ∀ i : grid1.Coords, EltTy.bits .f32 = 32 ∨ (Rect.block (s := S80000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S100000x128.size a
  hwx2_4 : ∀ i : grid2.Coords, EltTy.bits .f32 = 32 ∨ (Rect.block (s := S100000x128) S4000x128.size (cc2_transform_4 i) (hinb2_4 i)).WholeWords (EltTy.packing .f32)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S20000x256 : Shape := ⟨2, ![20000, 256]⟩
abbrev S80000x256 : Shape := ⟨2, ![80000, 256]⟩
abbrev S2x1600000 : Shape := ⟨2, ![2, 1600000]⟩
abbrev S2x1000000 : Shape := ⟨2, ![2, 1000000]⟩
abbrev S256x128 : Shape := ⟨2, ![256, 128]⟩
abbrev S128 : Shape := ⟨1, ![128]⟩
abbrev S128x128 : Shape := ⟨2, ![128, 128]⟩
abbrev S20000x128 : Shape := ⟨2, ![20000, 128]⟩
abbrev S1x128 : Shape := ⟨2, ![1, 128]⟩
abbrev S_ : Shape := ⟨0, ![]⟩
abbrev S80000x128 : Shape := ⟨2, ![80000, 128]⟩
abbrev S100000x128 : Shape := ⟨2, ![100000, 128]⟩
abbrev S1x1600000 : Shape := ⟨2, ![1, 1600000]⟩
abbrev S1600000 : Shape := ⟨1, ![1600000]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x1000000 : Shape := ⟨2, ![1, 1000000]⟩
abbrev S1000000 : Shape := ⟨1, ![1000000]⟩
abbrev S1000000x1 : Shape := ⟨2, ![1000000, 1]⟩
abbrev S1000000x128 : Shape := ⟨2, ![1000000, 128]⟩

abbrev nBuf : Space → Nat
  | .hbm => 115
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S80000x256, .f32⟩
  | .hbm, ⟨2, _⟩ => ⟨S2x1600000, .i32⟩
  | .hbm, ⟨3, _⟩ => ⟨S2x1000000, .i32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S20000x128, .f32⟩
  | .hbm, ⟨11, _⟩ => ⟨S1x128, .f32⟩
  | .hbm, ⟨12, _⟩ => ⟨S20000x128, .f32⟩
  | .hbm, ⟨13, _⟩ => ⟨S20000x128, .f32⟩
  | .hbm, ⟨14, _⟩ => ⟨S_, .f32⟩
  | .hbm, ⟨15, _⟩ => ⟨S20000x128, .f32⟩
  | .hbm, ⟨16, _⟩ => ⟨S20000x128, .f32⟩
  | .hbm, ⟨17, _⟩ => ⟨S80000x128, .f32⟩
  | .hbm, ⟨18, _⟩ => ⟨S1x128, .f32⟩
  | .hbm, ⟨19, _⟩ => ⟨S80000x128, .f32⟩
  | .hbm, ⟨20, _⟩ => ⟨S80000x128, .f32⟩
  | .hbm, ⟨21, _⟩ => ⟨S_, .f32⟩
  | .hbm, ⟨22, _⟩ => ⟨S80000x128, .f32⟩
  | .hbm, ⟨23, _⟩ => ⟨S80000x128, .f32⟩
  | .hbm, ⟨24, _⟩ => ⟨S100000x128, .f32⟩
  | .hbm, ⟨25, _⟩ => ⟨S1x1600000, .i32⟩
  | .hbm, ⟨26, _⟩ => ⟨S1600000, .i32⟩
  | .hbm, ⟨27, _⟩ => ⟨S1x1600000, .i32⟩
  | .hbm, ⟨28, _⟩ => ⟨S1600000, .i32⟩
  | .hbm, ⟨29, _⟩ => ⟨S100000x128, .f32⟩
  | .hbm, ⟨30, _⟩ => ⟨S_, .f32⟩
  | .hbm, ⟨31, _⟩ => ⟨S100000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S_, .f32⟩
  | .hbm, ⟨41, _⟩ => ⟨S1600000, .f32⟩
  | .hbm, ⟨42, _⟩ => ⟨S100000, .f32⟩
  | .hbm, ⟨43, _⟩ => ⟨S100000, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000, .f32⟩
  | .hbm, ⟨62, _⟩ => ⟨S1600000, .f32⟩
  | .hbm, ⟨63, _⟩ => ⟨S1600000x1, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S1600000x128, .f32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S100000, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S1x1000000, .i32⟩
  | .hbm, ⟨91, _⟩ => ⟨S1000000, .i32⟩
  | .hbm, ⟨92, _⟩ => ⟨S_, .i32⟩
  | .hbm, ⟨93, _⟩ => ⟨S1000000, .i32⟩
  | .hbm, ⟨94, _⟩ => ⟨S1000000, .i1⟩
  | .hbm, ⟨95, _⟩ => ⟨S_, .i32⟩
  | .hbm, ⟨96, _⟩ => ⟨S1000000, .i32⟩
  | .hbm, ⟨97, _⟩ => ⟨S1000000, .i32⟩
  | .hbm, ⟨98, _⟩ => ⟨S1000000, .i32⟩
  | .hbm, ⟨99, _⟩ => ⟨S1000000x1, .i32⟩
  | .hbm, ⟨100, _⟩ => ⟨S1000000x128, .f32⟩
  | .hbm, ⟨101, _⟩ => ⟨S1x1000000, .i32⟩
  | .hbm, ⟨102, _⟩ => ⟨S1000000, .i32⟩
  | .hbm, ⟨103, _⟩ => ⟨S_, .i32⟩
  | .hbm, ⟨104, _⟩ => ⟨S1000000, .i32⟩
  | .hbm, ⟨105, _⟩ => ⟨S1000000, .i1⟩
  | .hbm, ⟨106, _⟩ => ⟨S_, .i32⟩
  | .hbm, ⟨107, _⟩ => ⟨S1000000, .i32⟩
  | .hbm, ⟨108, _⟩ => ⟨S1000000, .i32⟩
  | .hbm, ⟨109, _⟩ => ⟨S1000000, .i32⟩
  | .hbm, ⟨110, _⟩ => ⟨S1000000x1, .i32⟩
  | .hbm, ⟨111, _⟩ => ⟨S1000000x128, .f32⟩
  | .hbm, ⟨112, _⟩ => ⟨S1000000x128, .f32⟩
  | .hbm, ⟨113, _⟩ => ⟨S_, .f32⟩
  | .hbm, ⟨114, _⟩ => ⟨S1000000, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_c_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_4 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_6 : Ref sig .tc := ⟨.hbm, 64, rfl⟩
abbrev main_v42 : Ref sig .tc := ⟨.hbm, 65, rfl⟩
abbrev main_v43 : Ref sig .tc := ⟨.hbm, 66, rfl⟩
abbrev main_c_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call2_cst : Ref sig .tc := ⟨.hbm, 87, rfl⟩
abbrev main_call2_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_9 : Ref sig .tc := ⟨.hbm, 92, rfl⟩
abbrev main_v65 : Ref sig .tc := ⟨.hbm, 93, rfl⟩
abbrev main_v66 : Ref sig .tc := ⟨.hbm, 94, rfl⟩
abbrev main_c_10 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_11 : Ref sig .tc := ⟨.hbm, 103, rfl⟩
abbrev main_v74 : Ref sig .tc := ⟨.hbm, 104, rfl⟩
abbrev main_v75 : Ref sig .tc := ⟨.hbm, 105, rfl⟩
abbrev main_c_12 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_13 : Ref sig .tc := ⟨.hbm, 113, rfl⟩
abbrev main_v82 : Ref sig .tc := ⟨.hbm, 114, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S1x128_S80000x128_0_1 : S1x128.BroadcastsInDim S80000x128 (![0, 1] : Fin 2 → Fin S80000x128.rank)
  bcast_S_S80000x128 : S_.BroadcastsInDim S80000x128 (![] : Fin 0 → Fin S80000x128.rank)
  concatenates_S20000x128_S80000x128_S100000x128_d0 : Shape.Concatenates [S20000x128, S80000x128] S100000x128 0
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  reducesTo_S1000000x128_S1000000_d1 : S1000000x128.ReducesTo [1] S1000000
  h_S_ : 0 < S_.numel
  dot_S20000x256_S256x128_S20000x128_1_0_0_1_n_n_wf : DotDims.WF S20000x256 S256x128 S20000x128 [1] [0] [0] [1] [] []
  dot_S80000x256_S256x128_S80000x128_1_0_0_1_n_n_wf : DotDims.WF S80000x256 S256x128 S80000x128 [1] [0] [0] [1] [] []
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S1000000x1_S1000000x128_1_0_n_n_0_1_1128_wf : GatherDims.WF S100000x128 S1000000x1 S1000000x128 [1] [0] [] [0] [] 1 ![1, 128]

variable [Facts₀]

def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S80000x256_S256x128_S80000x128_1_0_0_1_n_n : DotDims S80000x256 S256x128 S80000x128 where
  lhsContracting := [1]
  rhsContracting := [0]
  lhsNonContracting := [0]
  rhsNonContracting := [1]
  lhsBatch := []
  rhsBatch := []
  wf := dot_S80000x256_S256x128_S80000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf

class Facts : Prop extends Facts₀ where

variable [Facts]
-- ==== Proof.KRun.lean ====
/-
  The idealized kernel program's run, read at its result buffer.

  The program is three kernel regions among three stretches of host operations.  The buffer contents at each
  boundary are a fold from the launch memory: a host stretch applies its operations' functions, a region replaces
  its output array by what its grid points wrote back.  The last boundary's contents are `Gen.W6`.  Every weakly
  fair execution terminates with each unscoped buffer at `Gen.W6`; here that is stated at the result buffer
  `main_v77` (the edge scores) beside the ten argument arrays, which end as launched.
-/
import proofs.«172549_j60722247631463_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the arguments as launched. -/
theorem run_res : θ_run defs (onTc (τ := τ) (main (F := F))) ⟨m, fun _ => 0, ρ⟩ (fun r => ∀ c : Dev nD,
      r.2.mem ((c.tc : Thread nD τ).loc main_v77) = W6 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v77 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.KRun

end
-- ==== Proof.Pay.lean ====
/-
  The three kernel bodies' stored values, read at an index, over the extended reals.

  Regions 0 and 1 run one body: a block of 4000 rows of `x` goes through `x · W + b`, the positive part, and then
  `· Wg`; both products are into a zero accumulator, so entry `(p, n)` of the stored block is
  `∑ k, max (∑ q, x[p,q]·W[q,k] + b[0,k]) 0 · Wg[k,n]` (changes of float format are the identity here).
  Region 2's body is pointwise in the row: entry `(p, n)` is `max (agg[p,n] + h[p,n]·c[p,0] + bias[0,n]) 0`.
-/
import proofs.«172549_j60722247631463_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- The dimension numbers of the first product, rows × 256 times 256 × 128. -/
abbrev D1 : DotDims S4000x256 S256x128 S4000x128 := dot_S4000x256_S256x128_S4000x128_1_0_0_1_n_n
/-- The dimension numbers of the second product, rows × 128 times 128 × 128. -/
abbrev D2 : DotDims S4000x128 S128x128 S4000x128 := dot_S4000x128_S128x128_S4000x128_1_0_0_1_n_n

theorem d1_lhs0 (i : S4000x128.Idx) (q : D1.contr.Idx) : (D1.lhsIdx i q 0).val = (i 0).val := by
  unfold DotDims.lhsIdx
  rw [dif_neg (show ¬(0 : Fin S4000x256.rank) ∈ D1.lhsBatch by decide), dif_pos (show (0 : Fin S4000x256.rank) ∈ D1.lhsNonContracting by decide)]
  rfl
theorem d1_lhs1 (i : S4000x128.Idx) (q : D1.contr.Idx) : (D1.lhsIdx i q 1).val = (q ⟨0, by decide⟩).val :=
  D1.lhsIdx_val_of_single rfl i q
theorem d1_rhs0 (i : S4000x128.Idx) (q : D1.contr.Idx) : (D1.rhsIdx i q 0).val = (q ⟨0, by decide⟩).val :=
  D1.rhsIdx_val_of_single rfl i q
theorem d1_rhs1 (i : S4000x128.Idx) (q : D1.contr.Idx) : (D1.rhsIdx i q 1).val = (i 1).val := by
  unfold DotDims.rhsIdx
  rw [dif_neg (show ¬(1 : Fin S256x128.rank) ∈ D1.rhsBatch by decide), dif_pos (show (1 : Fin S256x128.rank) ∈ D1.rhsNonContracting by decide)]
  rfl

theorem d2_lhs0 (i : S4000x128.Idx) (q : D2.contr.Idx) : (D2.lhsIdx i q 0).val = (i 0).val := by
  unfold DotDims.lhsIdx
  rw [dif_neg (show ¬(0 : Fin S4000x128.rank) ∈ D2.lhsBatch by decide), dif_pos (show (0 : Fin S4000x128.rank) ∈ D2.lhsNonContracting by decide)]
  rfl
theorem d2_lhs1 (i : S4000x128.Idx) (q : D2.contr.Idx) : (D2.lhsIdx i q 1).val = (q ⟨0, by decide⟩).val :=
  D2.lhsIdx_val_of_single rfl i q
theorem d2_rhs0 (i : S4000x128.Idx) (q : D2.contr.Idx) : (D2.rhsIdx i q 0).val = (q ⟨0, by decide⟩).val :=
  D2.rhsIdx_val_of_single rfl i q
theorem d2_rhs1 (i : S4000x128.Idx) (q : D2.contr.Idx) : (D2.rhsIdx i q 1).val = (i 1).val := by
  unfold DotDims.rhsIdx
  rw [dif_neg (show ¬(1 : Fin S128x128.rank) ∈ D2.rhsBatch by decide), dif_pos (show (1 : Fin S128x128.rank) ∈ D2.rhsNonContracting by decide)]
  rfl

/-- The first product into a zero accumulator, at entry `(p, k)`: the sum over the 256 contracted positions. -/
theorem mm1_apply (l : FVec Ideal S4000x256 .bf16) (r : FVec Ideal S256x128 .bf16) (p : Fin 4000) (k : Fin 128) :
    matmul D1 none l r (constant (F := Ideal) S4000x128 .f32 0x00000000#32) (ix2 p k) = ∑ q : Fin 256, l (ix2 p q) * r (ix2 q k) := by
  simp only [matmul]
  rw [Ideal.matmul_constant_zero_apply, ← Equiv.sum_comp (contrEquiv1 D1 256 rfl rfl).symm]
  refine Finset.sum_congr rfl fun q _ => ?_
  have hq := contrEquiv1_symm_val D1 256 rfl rfl q
  have el : D1.lhsIdx (ix2 p k) ((contrEquiv1 D1 256 rfl rfl).symm q) = ix2 p q := funext fun a => Fin.ext (by
    match a with
    | ⟨0, _⟩ => exact d1_lhs0 _ _
    | ⟨1, _⟩ => exact (d1_lhs1 _ _).trans hq)
  have er : D1.rhsIdx (ix2 p k) ((contrEquiv1 D1 256 rfl rfl).symm q) = ix2 q k := funext fun a => Fin.ext (by
    match a with
    | ⟨0, _⟩ => exact (d1_rhs0 _ _).trans hq
    | ⟨1, _⟩ => exact d1_rhs1 _ _)
  rw [el, er]

/-- The second product into a zero accumulator, at entry `(p, n)`: the sum over the 128 contracted positions. -/
theorem mm2_apply (l : FVec Ideal S4000x128 .bf16) (r : FVec Ideal S128x128 .bf16) (p : Fin 4000) (n : Fin 128) :
    matmul D2 none l r (constant (F := Ideal) S4000x128 .f32 0x00000000#32) (ix2 p n) = ∑ k : Fin 128, l (ix2 p k) * r (ix2 k n) := by
  simp only [matmul]
  rw [Ideal.matmul_constant_zero_apply, ← Equiv.sum_comp (contrEquiv1 D2 128 rfl rfl).symm]
  refine Finset.sum_congr rfl fun k _ => ?_
  have hk := contrEquiv1_symm_val D2 128 rfl rfl k
  have el : D2.lhsIdx (ix2 p n) ((contrEquiv1 D2 128 rfl rfl).symm k) = ix2 p k := funext fun a => Fin.ext (by
    match a with
    | ⟨0, _⟩ => exact d2_lhs0 _ _
    | ⟨1, _⟩ => exact (d2_lhs1 _ _).trans hk)
  have er : D2.rhsIdx (ix2 p n) ((contrEquiv1 D2 128 rfl rfl).symm k) = ix2 k n := funext fun a => Fin.ext (by
    match a with
    | ⟨0, _⟩ => exact (d2_rhs0 _ _).trans hk
    | ⟨1, _⟩ => exact d2_rhs1 _ _)
  rw [el, er]

/-- A column [a,1] spread over b lanes, read at `(p, n)`: the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (n : Fin b) :
    broadcastTo ⟨2, ![a, b]⟩ v h (ix2 p n) = v (ix2 p (0 : Fin 1)) := by
  refine broadcastTo_apply v h (ix2 p n) (ix2 p (0 : Fin 1)) fun ax => ?_
  match ax with
  | ⟨0, _⟩ =>
    show p.val = if a = 1 then 0 else p.val
    by_cases ha : a = 1
    · rw [if_pos ha]; have := p.isLt; omega
    · rw [if_neg ha]
  | ⟨1, _⟩ => rfl

/-- The linear body's stored block at `(p, n)`. -/
theorem k0_pay1_apply (x0 : Vec Ideal S4000x256 .f32) (x1 : Vec Ideal S256x128 .f32) (x2 : Vec Ideal S1x128 .f32)
    (x3 : Vec Ideal S128x128 .f32) (p : Fin 4000) (n : Fin 128) :
    k0_pay1 (F := Ideal) x0 x1 x2 x3 (ix2 p n)
      = ∑ k : Fin 128, max (∑ q : Fin 256, x0 (ix2 p q) * x1 (ix2 q k) + x2 (ix2 (0 : Fin 1) k)) (Ideal.ofBits .f32 0x00000000#32)
          * x3 (ix2 k n) := by
  unfold k0_pay1
  refine (mm2_apply _ _ p n).trans ?_
  refine Finset.sum_congr rfl fun k _ => ?_
  refine congrArg (· * x3 (ix2 k n)) ?_
  refine congrArg (max · (Ideal.ofBits .f32 0x00000000#32)) ?_
  refine congrArg₂ (· + ·) (mm1_apply _ _ p k) ?_
  rw [shapeCast_self]
  exact broadcastTo_1b_ab_apply x2 _ p k

/-- Region 1 runs the same body. -/
theorem k1_pay1_eq : @k1_pay1 Ideal _ = @k0_pay1 Ideal _ := rfl

/-- The pointwise body's stored block at `(p, n)`. -/
theorem k2_pay1_apply (v0 v2 : Vec Ideal S4000x128 .f32) (v4 : Vec Ideal S4000x1 .f32) (v9 : Vec Ideal S1x128 .f32)
    (p : Fin 4000) (n : Fin 128) :
    k2_pay1 (F := Ideal) v0 v2 v4 v9 (ix2 p n)
      = max (v0 (ix2 p n) + v2 (ix2 p n) * v4 (ix2 p (0 : Fin 1)) + v9 (ix2 (0 : Fin 1) n)) (Ideal.ofBits .f32 0x00000000#32) := by
  unfold k2_pay1
  refine congrArg (max · (Ideal.ofBits .f32 0x00000000#32)) ?_
  refine congrArg₂ (· + ·) (congrArg₂ (· + ·) ?_ (congrArg₂ (· * ·) ?_ ?_)) ?_
  · rw [shapeCast_self]
  · rw [shapeCast_self]
  · rw [shapeCast_self]; exact broadcastTo_a1_ab_apply v4 _ p n
  · rw [shapeCast_self]; exact broadcastTo_1b_ab_apply v9 _ p n

end Cert.KernelIdeal.Pay

end
-- ==== Proof.Spec.lean ====
/-
  The mathematics the two programs share, over the extended reals, with no program in sight.

  `linRow` is one row of the fused layers: from a row `x` of 256 features, `h[k] = max (∑ q, x[q]·W[q,k] + b[k]) 0`
  and then `∑ k, h[k]·Wg[k,n]`.  The kernel computes it block of rows by block of rows; the reference computes all
  the `h` rows first, joins the two node sets, and multiplies by `Wg` once.  Row by row they are the same sums.
  `scatter_shift` is the one law about the node degrees: counting the incoming edges from zero and then adding the self
  loop is counting them from one (addition of extended reals is commutative; no finiteness is needed).
-/
import Idealize.ShloMosaic.PureOps.Ideal
import Idealize.ShloMosaic.PureOps.Ideal.Laws
import Idealize.ShloMosaic.Lib.ValueIdx
import Idealize.ShloMosaic.PureOps.Contract

noncomputable section

namespace Cert.Gcn

open Idealize.ShloMosaic Idealize.ShloMosaic.ValueIdx

/-- One row through `x ↦ max (x·W + b) 0` and then `· Wg`, at output column `n`. -/
def linRow (x : Fin 256 → EReal) (W : (⟨2, ![256, 128]⟩ : Shape).Idx → EReal) (b : Fin 128 → EReal)
    (Wg : (⟨2, ![128, 128]⟩ : Shape).Idx → EReal) (n : Fin 128) : EReal :=
  ∑ k : Fin 128, max (∑ q : Fin 256, x q * W (ix2 q k) + b k) (Ideal.ofBits .f32 0x00000000#32) * Wg (ix2 k n)

/-- An accumulating scatter into an array of `o`s is the same scatter into an array of zeros, plus `o`: at each
    element the updates that land on it are added to the start value, and addition of extended reals is commutative. -/
theorem scatter_shift {s si su : Shape} (d : ScatterDims s si su) {w : Nat} (x0 x1 : s.Idx → EReal) (idx : IVec si w)
    (upd : su.Idx → EReal) (o : EReal) (h0 : ∀ i, x0 i = 0) (h1 : ∀ i, x1 i = o) (i : s.Idx) :
    Ideal.hostScatterAdd d x1 idx upd i = Ideal.hostScatterAdd d x0 idx upd i + o := by
  unfold Ideal.hostScatterAdd
  rw [h0 i, h1 i, zero_add, add_comm]

/-- The same law on whole arrays, for the host's accumulating scatter: into an array that is `o` everywhere it gives
    the scatter into an array that is zero everywhere, plus any array that is `o` everywhere. -/
theorem scatterAdd_shift {s si su : Shape} (d : ScatterDims s si su) {w : Nat} (x0 x1 b : FVec Ideal s .f32) (idx : IVec si w)
    (upd : FVec Ideal su .f32) (o : EReal) (h0 : ∀ i, x0 i = 0) (h1 : ∀ i, x1 i = o) (hb : ∀ i, b i = o) :
    Host.scatterAdd d x1 idx upd = addf (Host.scatterAdd d x0 idx upd) b := by
  funext i
  show Ideal.hostScatterAdd d x1 idx upd i = Ideal.hostScatterAdd d x0 idx upd i + b i
  rw [hb i]
  exact scatter_shift d x0 x1 idx upd o h0 h1 i

end Cert.Gcn

end
-- ==== Proof.Reg0.lean ====
/-
  Region 0 (the first node set, 20000 rows in 5 blocks of 4000): its output array after the region, as one function
  of the four arrays the region reads.

  Point `t` reads rows `4000 t … 4000 t + 3999` of `x` and the whole of `W`, `b`, `Wg`, and writes back rows
  `4000 t … 4000 t + 3999` of the output; the five blocks tile the output, so after the region entry `(r, n)` of
  the output is `linRow` of row `r` of `x`.
-/
import proofs.«172549_j60722247631463_2_alg».proof.Proof.Gen.KernelIdeal.Frame
import proofs.«172549_j60722247631463_2_alg».proof.Proof.Pay
import proofs.«172549_j60722247631463_2_alg».proof.Proof.Spec
import Idealize.ShloMosaic.Lib.Pipeline.Value

set_option maxRecDepth 16384

noncomputable section

namespace Cert.KernelIdeal.Reg0

open Cert.KernelIdeal Cert.KernelIdeal.Gen Cert.KernelIdeal.Pay Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array: row `r` is `linRow` of row `r` of `X`. -/
def G (X : S20000x256.Idx → EReal) (W : S256x128.Idx → EReal) (B : S1x128.Idx → EReal) (Wg : S128x128.Idx → EReal) :
    S20000x128.Idx → EReal :=
  fun i => linRow (fun q => X (ix2 (⟨(i 0).val, idx2_lt0 i⟩ : Fin 20000) q)) W (fun k => B (ix2 (0 : Fin 1) k)) Wg
    (⟨(i 1).val, idx2_lt1 i⟩ : Fin 128)

/-- One stored entry: entry `j` of the block of point `tt` is entry `i` of `G`, `i` being `j` moved down `4000 tt` rows,
    when the `x` block holds those rows of `X` and the other three blocks are the whole arrays. -/
theorem point_eq (x0 : Vec Ideal S4000x256 .f32) (x1 : Vec Ideal S256x128 .f32) (x2 : Vec Ideal S1x128 .f32)
    (x3 : Vec Ideal S128x128 .f32) (X : S20000x256.Idx → EReal) (W : S256x128.Idx → EReal) (B : S1x128.Idx → EReal)
    (Wg : S128x128.Idx → EReal) (tt : ℕ) (j : S4000x128.Idx) (i : S20000x128.Idx)
    (hi0 : (i 0).val = tt * 4000 + (j 0).val) (hi1 : (i 1).val = (j 1).val)
    (h0 : ∀ (y : S4000x256.Idx) (z : S20000x256.Idx), (z 0).val = tt * 4000 + (y 0).val → (z 1).val = (y 1).val → x0 y = X z)
    (h1 : x1 = W) (h2 : x2 = B) (h3 : x3 = Wg) :
    k0_pay1 (F := Ideal) x0 x1 x2 x3 j = G X W B Wg i := by
  subst h1 h2 h3
  obtain ⟨p, n, rfl⟩ : ∃ (p : Fin 4000) (n : Fin 128), j = ix2 p n := ⟨j 0, j 1, eq_ix2 j⟩
  rw [k0_pay1_apply]
  unfold G linRow
  have hn : (⟨(i 1).val, idx2_lt1 i⟩ : Fin 128) = n := Fin.ext hi1
  rw [hn]
  refine Finset.sum_congr rfl fun k _ => ?_
  refine congrArg (· * x3 (ix2 k n)) (congrArg (max · (Ideal.ofBits .f32 0x00000000#32)) (congrArg (· + x2 (ix2 (0 : Fin 1) k)) (Finset.sum_congr rfl fun q _ => ?_)))
  exact congrArg (· * x1 (ix2 q k)) (h0 (ix2 p q) _ hi0 rfl)

/-- The printed index maps over the grid: the row blocks move with the point, the other windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A window whose block is its whole array reads the array. -/
theorem whole1 (c : Dev nD) (t : Fin cfg0.N) : iblk0 V c 1 t = V c (Pipeline.arrRef spec0 1) := by
  obtain ⟨-, -, e0, e1, -⟩ := idx_facts t
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega
theorem whole2 (c : Dev nD) (t : Fin cfg0.N) : iblk0 V c 2 t = V c (Pipeline.arrRef spec0 2) := by
  obtain ⟨-, -, -, -, e0, e1, -⟩ := idx_facts t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega
theorem whole3 (c : Dev nD) (t : Fin cfg0.N) : iblk0 V c 3 t = V c (Pipeline.arrRef spec0 3) := by
  obtain ⟨-, -, -, -, -, -, e0, e1, -⟩ := idx_facts t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The row block of point `t` holds rows `4000 t …` of the `x` array. -/
theorem rows0 (c : Dev nD) (t : Fin cfg0.N) (y : S4000x256.Idx) (z : S20000x256.Idx)
    (hz0 : (z 0).val = t.val * 4000 + (y 0).val) (hz1 : (z 1).val = (y 1).val) :
    (iblk0 V c 0 t : Vec Ideal S4000x256 .f32) y = (V c (Pipeline.arrRef spec0 0) : S20000x256.Idx → EReal) z := by
  obtain ⟨e0, e1, -⟩ := idx_facts t
  show V c (Pipeline.arrRef spec0 0) (((cfg0.win 0).blk t).view.emb y) = V c (Pipeline.arrRef spec0 0) z
  refine congrArg _ (funext fun a => Fin.ext ?_)
  match a with
  | ⟨0, _⟩ => show win0_0.index t (0 : Fin 2) * 4000 + 1 * (y 0).val = (z 0).val; omega
  | ⟨1, _⟩ => show win0_0.index t (1 : Fin 2) * 256 + 1 * (y 1).val = (z 1).val; omega

/-- What point `t` writes back is block `t` of `G` of the arrays as the region finds them. -/
theorem flushed_eq (c : Dev nD) (t : Fin cfg0.N) :
    (dat0 V c).flushed 4 t = ((cfg0.win 4).blk t).view.read (Elt Ideal)
      (G (V c (Pipeline.arrRef spec0 0)) (V c (Pipeline.arrRef spec0 1)) (V c (Pipeline.arrRef spec0 2)) (V c (Pipeline.arrRef spec0 3))) := by
  show (cfg0.win 4).cut (grid0.coords t) ((dat0 V c).after 4 t) = _
  rw [after0_4]
  unfold out0_4
  rw [View.canon_unit_zero hz]
  simp only [View.ld_unit_zero (S := S4000x256) hz, View.ld_unit_zero (S := S256x128) hz, View.ld_unit_zero (S := S1x128) hz,
    View.ld_unit_zero (S := S128x128) hz]
  obtain ⟨-, -, -, -, -, -, -, -, e0, e1⟩ := idx_facts t
  refine funext fun (j : S4000x128.Idx) => ?_
  refine point_eq (iblk0 V c 0 t) (iblk0 V c 1 t) (iblk0 V c 2 t) (iblk0 V c 3 t) (V c (Pipeline.arrRef spec0 0))
    (V c (Pipeline.arrRef spec0 1)) (V c (Pipeline.arrRef spec0 2)) (V c (Pipeline.arrRef spec0 3)) t.val j
    (((cfg0.win 4).blk t).view.emb j) ?_ ?_ (fun y z h0 h1 => rows0 V c t y z h0 h1) (whole1 V c t) (whole2 V c t) (whole3 V c t)
  · show win0_4.index t (0 : Fin 2) * 4000 + 1 * (j 0).val = t.val * 4000 + (j 0).val; omega
  · show win0_4.index t (1 : Fin 2) * 128 + 1 * (j 1).val = (j 1).val; omega

/-- An index of the output is in point `t`'s block iff each coordinate is in the block's range on its axis. -/
theorem mem_blk (t : Fin cfg0.N) (i : S20000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v3).slice (win0_4.rect t)).set ↔ _
  rw [View.set_slice_whole, Rect.mem_set_unit]
  exact Iff.rfl

/-- Every row block of the output is some point's. -/
theorem idx_onto : ∀ q0 : Fin 5, ∃ t : Fin cfg0.N, win0_4.index t = ![q0.val, 0] :=
  (by decide +kernel : ∀ q0 : Fin 5, ∃ t : Fin grid0.N, win0_4.index t = ![q0.val, 0])

/-- The blocks tile the output: row `r` is in the block of the point with `r / 4000` as its row block. -/
theorem cover (i : S20000x128.Idx) : ∃ t : Fin cfg0.N, (cfg0.win 4).flush t = true ∧ i ∈ ((cfg0.win 4).blk t).view.set := by
  have hi0 : (i 0).val < 20000 := (i 0).isLt
  have hi1 : (i 1).val < 128 := (i 1).isLt
  obtain ⟨t, ht⟩ := idx_onto ⟨(i 0).val / 4000, by omega⟩
  have q0 : win0_4.index t (0 : Fin 2) = (i 0).val / 4000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-- The output array after the region. -/
theorem final (c : Dev nD) : (dat0 V c).arrAt 4 cfg0.N
    = G (V c (Pipeline.arrRef spec0 0)) (V c (Pipeline.arrRef spec0 1)) (V c (Pipeline.arrRef spec0 2)) (V c (Pipeline.arrRef spec0 3)) :=
  (dat0 V c).arrAt_eq_of_cover 4 _ (fun t _ => flushed_eq V c t) cover

end Cert.KernelIdeal.Reg0

end
-- ==== Proof.Reg1.lean ====
/-
  Region 1 (the second node set, 80000 rows in 20 blocks of 4000): its output array after the region, as one function
  of the four arrays the region reads.

  Point `t` reads rows `4000 t … 4000 t + 3999` of `x` and the whole of `W`, `b`, `Wg`, and writes back rows
  `4000 t … 4000 t + 3999` of the output; the twenty blocks tile the output, so after the region entry `(r, n)` of
  the output is `linRow` of row `r` of `x`.
-/
import proofs.«172549_j60722247631463_2_alg».proof.Proof.Gen.KernelIdeal.Frame
import proofs.«172549_j60722247631463_2_alg».proof.Proof.Pay
import proofs.«172549_j60722247631463_2_alg».proof.Proof.Spec
import Idealize.ShloMosaic.Lib.Pipeline.Value

set_option maxRecDepth 16384

noncomputable section

namespace Cert.KernelIdeal.Reg1

open Cert.KernelIdeal Cert.KernelIdeal.Gen Cert.KernelIdeal.Pay Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array: row `r` is `linRow` of row `r` of `X`. -/
def G (X : S80000x256.Idx → EReal) (W : S256x128.Idx → EReal) (B : S1x128.Idx → EReal) (Wg : S128x128.Idx → EReal) :
    S80000x128.Idx → EReal :=
  fun i => linRow (fun q => X (ix2 (⟨(i 0).val, idx2_lt0 i⟩ : Fin 80000) q)) W (fun k => B (ix2 (0 : Fin 1) k)) Wg
    (⟨(i 1).val, idx2_lt1 i⟩ : Fin 128)

/-- One stored entry: entry `j` of the block of point `tt` is entry `i` of `G`, `i` being `j` moved down `4000 tt` rows,
    when the `x` block holds those rows of `X` and the other three blocks are the whole arrays. -/
theorem point_eq (x0 : Vec Ideal S4000x256 .f32) (x1 : Vec Ideal S256x128 .f32) (x2 : Vec Ideal S1x128 .f32)
    (x3 : Vec Ideal S128x128 .f32) (X : S80000x256.Idx → EReal) (W : S256x128.Idx → EReal) (B : S1x128.Idx → EReal)
    (Wg : S128x128.Idx → EReal) (tt : ℕ) (j : S4000x128.Idx) (i : S80000x128.Idx)
    (hi0 : (i 0).val = tt * 4000 + (j 0).val) (hi1 : (i 1).val = (j 1).val)
    (h0 : ∀ (y : S4000x256.Idx) (z : S80000x256.Idx), (z 0).val = tt * 4000 + (y 0).val → (z 1).val = (y 1).val → x0 y = X z)
    (h1 : x1 = W) (h2 : x2 = B) (h3 : x3 = Wg) :
    k1_pay1 (F := Ideal) x0 x1 x2 x3 j = G X W B Wg i := by
  subst h1 h2 h3
  obtain ⟨p, n, rfl⟩ : ∃ (p : Fin 4000) (n : Fin 128), j = ix2 p n := ⟨j 0, j 1, eq_ix2 j⟩
  show k0_pay1 (F := Ideal) x0 x1 x2 x3 (ix2 p n) = _
  rw [k0_pay1_apply]
  unfold G linRow
  have hn : (⟨(i 1).val, idx2_lt1 i⟩ : Fin 128) = n := Fin.ext hi1
  rw [hn]
  refine Finset.sum_congr rfl fun k _ => ?_
  refine congrArg (· * x3 (ix2 k n)) (congrArg (max · (Ideal.ofBits .f32 0x00000000#32)) (congrArg (· + x2 (ix2 (0 : Fin 1) k)) (Finset.sum_congr rfl fun q _ => ?_)))
  exact congrArg (· * x1 (ix2 q k)) (h0 (ix2 p q) _ hi0 rfl)

/-- The printed index maps over the grid: the row blocks move with the point, the other windows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A window whose block is its whole array reads the array. -/
theorem whole1 (c : Dev nD) (t : Fin cfg1.N) : iblk1 V c 1 t = V c (Pipeline.arrRef spec1 1) := by
  obtain ⟨-, -, e0, e1, -⟩ := idx_facts t
  funext y
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 256 + 1 * (y 0).val = (y 0).val; omega
  | ⟨1, _⟩ => show win1_1.index t (1 : Fin 2) * 128 + 1 * (y 1).val = (y 1).val; omega
theorem whole2 (c : Dev nD) (t : Fin cfg1.N) : iblk1 V c 2 t = V c (Pipeline.arrRef spec1 2) := by
  obtain ⟨-, -, -, -, e0, e1, -⟩ := idx_facts t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega
theorem whole3 (c : Dev nD) (t : Fin cfg1.N) : iblk1 V c 3 t = V c (Pipeline.arrRef spec1 3) := by
  obtain ⟨-, -, -, -, -, -, e0, e1, -⟩ := idx_facts t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The row block of point `t` holds rows `4000 t …` of the `x` array. -/
theorem rows0 (c : Dev nD) (t : Fin cfg1.N) (y : S4000x256.Idx) (z : S80000x256.Idx)
    (hz0 : (z 0).val = t.val * 4000 + (y 0).val) (hz1 : (z 1).val = (y 1).val) :
    (iblk1 V c 0 t : Vec Ideal S4000x256 .f32) y = (V c (Pipeline.arrRef spec1 0) : S80000x256.Idx → EReal) z := by
  obtain ⟨e0, e1, -⟩ := idx_facts t
  show V c (Pipeline.arrRef spec1 0) (((cfg1.win 0).blk t).view.emb y) = V c (Pipeline.arrRef spec1 0) z
  refine congrArg _ (funext fun a => Fin.ext ?_)
  match a with
  | ⟨0, _⟩ => show win1_0.index t (0 : Fin 2) * 4000 + 1 * (y 0).val = (z 0).val; omega
  | ⟨1, _⟩ => show win1_0.index t (1 : Fin 2) * 256 + 1 * (y 1).val = (z 1).val; omega

/-- What point `t` writes back is block `t` of `G` of the arrays as the region finds them. -/
theorem flushed_eq (c : Dev nD) (t : Fin cfg1.N) :
    (dat1 V c).flushed 4 t = ((cfg1.win 4).blk t).view.read (Elt Ideal)
      (G (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S4000x256) hz, View.ld_unit_zero (S := S256x128) hz, View.ld_unit_zero (S := S1x128) hz,
    View.ld_unit_zero (S := S128x128) hz]
  obtain ⟨-, -, -, -, -, -, -, -, e0, e1⟩ := idx_facts t
  refine funext fun (j : S4000x128.Idx) => ?_
  refine point_eq (iblk1 V c 0 t) (iblk1 V c 1 t) (iblk1 V c 2 t) (iblk1 V c 3 t) (V c (Pipeline.arrRef spec1 0))
    (V c (Pipeline.arrRef spec1 1)) (V c (Pipeline.arrRef spec1 2)) (V c (Pipeline.arrRef spec1 3)) t.val j
    (((cfg1.win 4).blk t).view.emb j) ?_ ?_ (fun y z h0 h1 => rows0 V c t y z h0 h1) (whole1 V c t) (whole2 V c t) (whole3 V c t)
  · show win1_4.index t (0 : Fin 2) * 4000 + 1 * (j 0).val = t.val * 4000 + (j 0).val; omega
  · show win1_4.index t (1 : Fin 2) * 128 + 1 * (j 1).val = (j 1).val; omega

/-- An index of the output is in point `t`'s block iff each coordinate is in the block's range on its axis. -/
theorem mem_blk (t : Fin cfg1.N) (i : S80000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v4).slice (win1_4.rect t)).set ↔ _
  rw [View.set_slice_whole, Rect.mem_set_unit]
  exact Iff.rfl

/-- Every row block of the output is some point's. -/
theorem idx_onto : ∀ q0 : Fin 20, ∃ t : Fin cfg1.N, win1_4.index t = ![q0.val, 0] :=
  (by decide +kernel : ∀ q0 : Fin 20, ∃ t : Fin grid1.N, win1_4.index t = ![q0.val, 0])

/-- The blocks tile the output: row `r` is in the block of the point with `r / 4000` as its row block. -/
theorem cover (i : S80000x128.Idx) : ∃ t : Fin cfg1.N, (cfg1.win 4).flush t = true ∧ i ∈ ((cfg1.win 4).blk t).view.set := by
  have hi0 : (i 0).val < 80000 := (i 0).isLt
  have hi1 : (i 1).val < 128 := (i 1).isLt
  obtain ⟨t, ht⟩ := idx_onto ⟨(i 0).val / 4000, by omega⟩
  have q0 : win1_4.index t (0 : Fin 2) = (i 0).val / 4000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 128 ≤ (i 1).val ∧ (i 1).val < win1_4.index t (1 : Fin 2) * 128 + 128; omega

/-- The output array after the region. -/
theorem final (c : Dev nD) : (dat1 V c).arrAt 4 cfg1.N
    = G (V c (Pipeline.arrRef spec1 0)) (V c (Pipeline.arrRef spec1 1)) (V c (Pipeline.arrRef spec1 2)) (V c (Pipeline.arrRef spec1 3)) :=
  (dat1 V c).arrAt_eq_of_cover 4 _ (fun t _ => flushed_eq V c t) cover

end Cert.KernelIdeal.Reg1

end
-- ==== Proof.Reg2.lean ====
/-
  Region 2 (all 100000 nodes in 25 blocks of 4000): its output array after the region, as one function of the four
  arrays the region reads.

  Point `t` reads rows `4000 t … 4000 t + 3999` of the aggregated messages, of `h` and of the self-loop coefficient
  column, and the whole bias row, and writes back the same rows of the output: entry `(r, n)` of the output is
  `max (agg[r,n] + h[r,n]·c[r,0] + bias[0,n]) 0`.
-/
import proofs.«172549_j60722247631463_2_alg».proof.Proof.Gen.KernelIdeal.Frame
import proofs.«172549_j60722247631463_2_alg».proof.Proof.Pay
import Idealize.ShloMosaic.Lib.Pipeline.Value

set_option maxRecDepth 16384

noncomputable section

namespace Cert.KernelIdeal.Reg2

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array, entry by entry. -/
def G (A H : S100000x128.Idx → EReal) (C : S100000x1.Idx → EReal) (B : S1x128.Idx → EReal) : S100000x128.Idx → EReal :=
  fun i => max (A i + H i * C (ix2 (⟨(i 0).val, idx2_lt0 i⟩ : Fin 100000) (0 : Fin 1))
    + B (ix2 (0 : Fin 1) (⟨(i 1).val, idx2_lt1 i⟩ : Fin 128))) (Ideal.ofBits .f32 0x00000000#32)

/-- One stored entry: entry `j` of the block of point `tt` is entry `i` of `G`, `i` being `j` moved down `4000 tt` rows. -/
theorem point_eq (v0 v2 : Vec Ideal S4000x128 .f32) (v4 : Vec Ideal S4000x1 .f32) (v9 : Vec Ideal S1x128 .f32)
    (A H : S100000x128.Idx → EReal) (C : S100000x1.Idx → EReal) (B : S1x128.Idx → EReal)
    (tt : ℕ) (j : S4000x128.Idx) (i : S100000x128.Idx)
    (hi0 : (i 0).val = tt * 4000 + (j 0).val) (hi1 : (i 1).val = (j 1).val)
    (h0 : ∀ (y : S4000x128.Idx) (z : S100000x128.Idx), (z 0).val = tt * 4000 + (y 0).val → (z 1).val = (y 1).val → v0 y = A z)
    (h1 : ∀ (y : S4000x128.Idx) (z : S100000x128.Idx), (z 0).val = tt * 4000 + (y 0).val → (z 1).val = (y 1).val → v2 y = H z)
    (h2 : ∀ (y : S4000x1.Idx) (z : S100000x1.Idx), (z 0).val = tt * 4000 + (y 0).val → (z 1).val = (y 1).val → v4 y = C z)
    (h3 : v9 = B) :
    k2_pay1 (F := Ideal) v0 v2 v4 v9 j = G A H C B i := by
  subst h3
  obtain ⟨p, n, rfl⟩ : ∃ (p : Fin 4000) (n : Fin 128), j = ix2 p n := ⟨j 0, j 1, eq_ix2 j⟩
  rw [k2_pay1_apply]
  unfold G
  have hn : (⟨(i 1).val, idx2_lt1 i⟩ : Fin 128) = n := Fin.ext hi1
  rw [hn]
  refine congrArg (max · (Ideal.ofBits .f32 0x00000000#32)) (congrArg (· + v9 (ix2 (0 : Fin 1) n)) ?_)
  refine congrArg₂ (· + ·) (h0 (ix2 p n) i hi0 hi1) (congrArg₂ (· * ·) (h1 (ix2 p n) i hi0 hi1) (h2 (ix2 p (0 : Fin 1)) _ hi0 rfl))

/-- The printed index maps over the grid: the row blocks move with the point, the bias row stays. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The bias window's block is its whole array. -/
theorem whole3 (c : Dev nD) (t : Fin cfg2.N) : iblk2 V c 3 t = V c (Pipeline.arrRef spec2 3) := by
  obtain ⟨-, -, -, -, -, -, e0, e1, -⟩ := idx_facts t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The row blocks of point `t` hold rows `4000 t …` of their arrays. -/
theorem rows0 (c : Dev nD) (t : Fin cfg2.N) (y : S4000x128.Idx) (z : S100000x128.Idx)
    (hz0 : (z 0).val = t.val * 4000 + (y 0).val) (hz1 : (z 1).val = (y 1).val) :
    (iblk2 V c 0 t : Vec Ideal S4000x128 .f32) y = (V c (Pipeline.arrRef spec2 0) : S100000x128.Idx → EReal) z := by
  obtain ⟨e0, e1, -⟩ := idx_facts t
  show V c (Pipeline.arrRef spec2 0) (((cfg2.win 0).blk t).view.emb y) = V c (Pipeline.arrRef spec2 0) z
  refine congrArg _ (funext fun a => Fin.ext ?_)
  match a with
  | ⟨0, _⟩ => show win2_0.index t (0 : Fin 2) * 4000 + 1 * (y 0).val = (z 0).val; omega
  | ⟨1, _⟩ => show win2_0.index t (1 : Fin 2) * 128 + 1 * (y 1).val = (z 1).val; omega
theorem rows1 (c : Dev nD) (t : Fin cfg2.N) (y : S4000x128.Idx) (z : S100000x128.Idx)
    (hz0 : (z 0).val = t.val * 4000 + (y 0).val) (hz1 : (z 1).val = (y 1).val) :
    (iblk2 V c 1 t : Vec Ideal S4000x128 .f32) y = (V c (Pipeline.arrRef spec2 1) : S100000x128.Idx → EReal) z := by
  obtain ⟨-, -, e0, e1, -⟩ := idx_facts t
  show V c (Pipeline.arrRef spec2 1) (((cfg2.win 1).blk t).view.emb y) = V c (Pipeline.arrRef spec2 1) z
  refine congrArg _ (funext fun a => Fin.ext ?_)
  match a with
  | ⟨0, _⟩ => show win2_1.index t (0 : Fin 2) * 4000 + 1 * (y 0).val = (z 0).val; omega
  | ⟨1, _⟩ => show win2_1.index t (1 : Fin 2) * 128 + 1 * (y 1).val = (z 1).val; omega
theorem rows2 (c : Dev nD) (t : Fin cfg2.N) (y : S4000x1.Idx) (z : S100000x1.Idx)
    (hz0 : (z 0).val = t.val * 4000 + (y 0).val) (hz1 : (z 1).val = (y 1).val) :
    (iblk2 V c 2 t : Vec Ideal S4000x1 .f32) y = (V c (Pipeline.arrRef spec2 2) : S100000x1.Idx → EReal) z := by
  obtain ⟨-, -, -, -, e0, e1, -⟩ := idx_facts t
  show V c (Pipeline.arrRef spec2 2) (((cfg2.win 2).blk t).view.emb y) = V c (Pipeline.arrRef spec2 2) z
  refine congrArg _ (funext fun a => Fin.ext ?_)
  match a with
  | ⟨0, _⟩ => show win2_2.index t (0 : Fin 2) * 4000 + 1 * (y 0).val = (z 0).val; omega
  | ⟨1, _⟩ => show win2_2.index t (1 : Fin 2) * 1 + 1 * (y 1).val = (z 1).val; omega

/-- What point `t` writes back is block `t` of `G` of the arrays as the region finds them. -/
theorem flushed_eq (c : Dev nD) (t : Fin cfg2.N) :
    (dat2 V c).flushed 4 t = ((cfg2.win 4).blk t).view.read (Elt Ideal)
      (G (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero hz]
  simp only [View.ld_unit_zero (S := S4000x128) hz, View.ld_unit_zero (S := S4000x1) hz, View.ld_unit_zero (S := S1x128) hz]
  obtain ⟨-, -, -, -, -, -, -, -, e0, e1⟩ := idx_facts t
  refine funext fun (j : S4000x128.Idx) => ?_
  refine point_eq (iblk2 V c 0 t) (iblk2 V c 1 t) (iblk2 V c 2 t) (iblk2 V c 3 t) (V c (Pipeline.arrRef spec2 0))
    (V c (Pipeline.arrRef spec2 1)) (V c (Pipeline.arrRef spec2 2)) (V c (Pipeline.arrRef spec2 3)) t.val j
    (((cfg2.win 4).blk t).view.emb j) ?_ ?_ (fun y z h0 h1 => rows0 V c t y z h0 h1) (fun y z h0 h1 => rows1 V c t y z h0 h1)
    (fun y z h0 h1 => rows2 V c t y z h0 h1) (whole3 V c t)
  · show win2_4.index t (0 : Fin 2) * 4000 + 1 * (j 0).val = t.val * 4000 + (j 0).val; omega
  · show win2_4.index t (1 : Fin 2) * 128 + 1 * (j 1).val = (j 1).val; omega

/-- An index of the output is in point `t`'s block iff each coordinate is in the block's range on its axis. -/
theorem mem_blk (t : Fin cfg2.N) (i : S100000x128.Idx) :
    i ∈ ((cfg2.win 4).blk t).view.set ↔ ∀ a : Fin 2, win2_4.index t a * S4000x128.size a ≤ (i a).val ∧ (i a).val < win2_4.index t a * S4000x128.size a + S4000x128.size a := by
  show i ∈ ((View.whole main_v54).slice (win2_4.rect t)).set ↔ _
  rw [View.set_slice_whole, Rect.mem_set_unit]
  exact Iff.rfl

/-- Every row block of the output is some point's. -/
theorem idx_onto : ∀ q0 : Fin 25, ∃ t : Fin cfg2.N, win2_4.index t = ![q0.val, 0] :=
  (by decide +kernel : ∀ q0 : Fin 25, ∃ t : Fin grid2.N, win2_4.index t = ![q0.val, 0])

/-- The blocks tile the output: row `r` is in the block of the point with `r / 4000` as its row block. -/
theorem cover (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  obtain ⟨t, ht⟩ := idx_onto ⟨(i 0).val / 4000, by omega⟩
  have q0 : win2_4.index t (0 : Fin 2) = (i 0).val / 4000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 4000 ≤ (i 0).val ∧ (i 0).val < win2_4.index t (0 : Fin 2) * 4000 + 4000; omega
  | ⟨1, _⟩ => show win2_4.index t (1 : Fin 2) * 128 ≤ (i 1).val ∧ (i 1).val < win2_4.index t (1 : Fin 2) * 128 + 128; omega

/-- The output array after the region. -/
theorem final (c : Dev nD) : (dat2 V c).arrAt 4 cfg2.N
    = G (V c (Pipeline.arrRef spec2 0)) (V c (Pipeline.arrRef spec2 1)) (V c (Pipeline.arrRef spec2 2)) (V c (Pipeline.arrRef spec2 3)) :=
  (dat2 V c).arrAt_eq_of_cover 4 _ (fun t _ => flushed_eq V c t) cover

end Cert.KernelIdeal.Reg2

end
-- ==== Proof.KHost.lean ====
/-
  The host operations of the kernel program, stretch by stretch, as functions of the buffers each stretch reads.

  Between the second and third kernel regions the program joins the two node sets' features into `h`, counts each
  node's incoming edges (plus its self loop) and takes the inverse square root `norm`, weighs each edge's source
  row of `h` by `norm[src]·norm[dst]`, and sums the weighted rows into their destination nodes; it also forms the
  self-loop coefficient column `norm²`.  After the third region it scores each test edge by the inner product of
  its two end nodes' rows.  Edge indices are read as jax reads them: a negative index counts from the end.
  Each function below is the printed operations composed; each theorem says that a stretch, folded over any
  buffer contents, leaves that function of them in the named buffer.
-/
import proofs.«172549_j60722247631463_2_alg».proof.Proof.Gen.KernelIdeal.Launch
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-- A bias vector as a one-row matrix. -/
def biasRow (b : (⟨S128, .f32⟩ : BufTy).Contents (Elt F)) : (⟨S1x128, .f32⟩ : BufTy).Contents (Elt F) :=
  shapeCast _ b shapeCasts_S128_S1x128

/-- The two node sets' features, one under the other. -/
def joinRows (a : (⟨S20000x128, .f32⟩ : BufTy).Contents (Elt F)) (b : (⟨S80000x128, .f32⟩ : BufTy).Contents (Elt F)) :
    (⟨S100000x128, .f32⟩ : BufTy).Contents (Elt F) :=
  concatenate S100000x128 0 [⟨S20000x128, a⟩, ⟨S80000x128, b⟩] concatenates_S20000x128_S80000x128_S100000x128_d0

/-- Row `r` of the edge list, as a vector of 1600000 indices. -/
def srcE (x2 : (⟨S2x1600000, .i32⟩ : BufTy).Contents (Elt F)) : (⟨S1600000, .i32⟩ : BufTy).Contents (Elt F) :=
  shapeCast _ (extractStridedSlice S1x1600000 ![0, 0] x2 slices_S2x1600000_S1x1600000_0_0) shapeCasts_S1x1600000_S1600000
def dstE (x2 : (⟨S2x1600000, .i32⟩ : BufTy).Contents (Elt F)) : (⟨S1600000, .i32⟩ : BufTy).Contents (Elt F) :=
  shapeCast _ (extractStridedSlice S1x1600000 ![1, 0] x2 slices_S2x1600000_S1x1600000_1_0) shapeCasts_S1x1600000_S1600000

/-- An index vector with negative entries counted from the end (100000 added), as a column of start indices. -/
def wrapE (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- `norm`: the inverse square root of (incoming edges counted from zero) + 1. -/
def normK (x2 : (⟨S2x1600000, .i32⟩ : BufTy).Contents (Elt F)) : (⟨S100000, .f32⟩ : BufTy).Contents (Elt F) :=
  Host.rsqrt (addf
    (Host.scatterAdd scatter_S100000_S1600000x1_S1600000_n_0_0_1
      (broadcastInDim S100000 ![] bcast_S_S100000 (constant S_ .f32 0x00000000#32)) (wrapE (dstE x2))
      (broadcastInDim S1600000 ![] bcast_S_S1600000 (constant S_ .f32 0x3F800000#32)))
    (broadcastInDim S100000 ![] bcast_S_S100000 (constant S_ .f32 0x3F800000#32)))

/-- The edge weights `norm[src]·norm[dst]`, as a column. -/
def coefE (N : (⟨S100000, .f32⟩ : BufTy).Contents (Elt F)) (x2 : (⟨S2x1600000, .i32⟩ : BufTy).Contents (Elt F)) :
    (⟨S1600000x1, .f32⟩ : BufTy).Contents (Elt F) :=
  broadcastInDim S1600000x1 ![0] bcast_S1600000_S1600000x1_0
    (mulf (Host.gather gather_S100000_S1600000x1_S1600000_n_0_n_n_0_1_1 N (wrapE (srcE x2)))
      (Host.gather gather_S100000_S1600000x1_S1600000_n_0_n_n_0_1_1 N (wrapE (dstE x2))))

/-- The aggregated messages, the source rows fetched through the 16-bit format and back. -/
def aggK (H : (⟨S100000x128, .f32⟩ : BufTy).Contents (Elt F)) (N : (⟨S100000, .f32⟩ : BufTy).Contents (Elt F))
    (x2 : (⟨S2x1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dstE x2))
    (mulf (extf .f32 (Host.gather gather_S100000x128_S1600000x1_S1600000x128_1_0_n_n_0_1_1128 (truncf .bf16 H bitsLt_bf16_f32) (wrapE (srcE x2))) bitsLt_bf16_f32)
      (broadcastInDim S1600000x128 ![0, 1] bcast_S1600000x1_S1600000x128_0_1 (coefE N x2)))

/-- The self-loop coefficient column `norm²`. -/
def norm2K (N : (⟨S100000, .f32⟩ : BufTy).Contents (Elt F)) : (⟨S100000x1, .f32⟩ : BufTy).Contents (Elt F) :=
  broadcastInDim S100000x1 ![0] bcast_S100000_S100000x1_0 (mulf N N)

/-- Row `r` of the test edge list, and its wrapped column of start indices. -/
def srcT (x3 : (⟨S2x1000000, .i32⟩ : BufTy).Contents (Elt F)) : (⟨S1000000, .i32⟩ : BufTy).Contents (Elt F) :=
  shapeCast _ (extractStridedSlice S1x1000000 ![0, 0] x3 slices_S2x1000000_S1x1000000_0_0) shapeCasts_S1x1000000_S1000000
def dstT (x3 : (⟨S2x1000000, .i32⟩ : BufTy).Contents (Elt F)) : (⟨S1000000, .i32⟩ : BufTy).Contents (Elt F) :=
  shapeCast _ (extractStridedSlice S1x1000000 ![1, 0] x3 slices_S2x1000000_S1x1000000_1_0) shapeCasts_S1x1000000_S1000000
def wrapT (v : (⟨S1000000, .i32⟩ : BufTy).Contents (Elt F)) : (⟨S1000000x1, .i32⟩ : BufTy).Contents (Elt F) :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 100000#32))) v)

/-- The edge scores, the end nodes' rows fetched through the 16-bit format and back. -/
def scoreK (G : (⟨S100000x128, .f32⟩ : BufTy).Contents (Elt F)) (x3 : (⟨S2x1000000, .i32⟩ : BufTy).Contents (Elt F)) :
    (⟨S1000000, .f32⟩ : BufTy).Contents (Elt F) :=
  Host.reduceAdd
    (mulf (extf .f32 (Host.gather gather_S100000x128_S1000000x1_S1000000x128_1_0_n_n_0_1_1128 (truncf .bf16 G bitsLt_bf16_f32) (wrapT (srcT x3))) bitsLt_bf16_f32)
      (extf .f32 (Host.gather gather_S100000x128_S1000000x1_S1000000x128_1_0_n_n_0_1_1128 (truncf .bf16 G bitsLt_bf16_f32) (wrapT (dstT x3))) bitsLt_bf16_f32))
    (constant S_ .f32 0x00000000#32) reducesTo_S1000000x128_S1000000_d1 h_S_

variable (Wv : Valuation τ sig (Elt F))

/-! ## The first stretch: the three bias rows -/

theorem pre_v0 : StableHlo.after hostOps0 Wv (Proc.devRef .tc main_v0) = biasRow (Wv (Proc.devRef .tc main_arg5)) := by
  after_results; rfl
theorem pre_v1 : StableHlo.after hostOps0 Wv (Proc.devRef .tc main_v1) = biasRow (Wv (Proc.devRef .tc main_arg7)) := by
  after_results; rfl
theorem pre_v2 : StableHlo.after hostOps0 Wv (Proc.devRef .tc main_v2) = biasRow (Wv (Proc.devRef .tc main_arg9)) := by
  after_results; rfl

/-! ## The stretch between the second and third regions -/

theorem mid_v5 : StableHlo.after hostOps2 Wv (Proc.devRef .tc main_v5)
    = joinRows (Wv (Proc.devRef .tc main_v3)) (Wv (Proc.devRef .tc main_v4)) := by
  after_results_simp; rfl
theorem mid_v53 : StableHlo.after hostOps2 Wv (Proc.devRef .tc main_v53) = norm2K (normK (Wv (Proc.devRef .tc main_arg2))) := by
  after_results_simp; rfl
theorem mid_v51 : StableHlo.after hostOps2 Wv (Proc.devRef .tc main_v51)
    = aggK (joinRows (Wv (Proc.devRef .tc main_v3)) (Wv (Proc.devRef .tc main_v4))) (normK (Wv (Proc.devRef .tc main_arg2)))
        (Wv (Proc.devRef .tc main_arg2)) := by
  after_results_simp; rfl
theorem mid_v2 : StableHlo.after hostOps2 Wv (Proc.devRef .tc main_v2) = Wv (Proc.devRef .tc main_v2) := by
  after_results_simp

/-! ## The last stretch: the scores -/

theorem tail_v77 : StableHlo.after hostOps3 Wv (Proc.devRef .tc main_v77)
    = scoreK (Wv (Proc.devRef .tc main_v54)) (Wv (Proc.devRef .tc main_arg3)) := by
  after_results_simp; rfl

end Cert.KernelIdeal.KHost

end
-- ==== Proof.KVal.lean ====
/-
  The idealized kernel program's result as one function of its ten arguments.

  The boundary contents are walked back from the result buffer: the scores are the last stretch's function of the
  third region's output and the test edges; the third region's output is its pointwise function of the aggregated
  messages, the features `h`, the coefficient column and the bias row, which the middle stretch computed from the
  first two regions' outputs and the edge list; and those outputs are `linRow` of the rows of the two node sets.
  No buffer read along the way is written by anything but the operation named for it.
-/
import proofs.«172549_j60722247631463_2_alg».proof.Proof.Gen.KernelIdeal.Frame
import proofs.«172549_j60722247631463_2_alg».proof.Proof.Reg0
import proofs.«172549_j60722247631463_2_alg».proof.Proof.Reg1
import proofs.«172549_j60722247631463_2_alg».proof.Proof.Reg2
import proofs.«172549_j60722247631463_2_alg».proof.Proof.KHost

set_option maxRecDepth 16384

noncomputable section

namespace Cert.KernelIdeal.KVal

open Cert.KernelIdeal Cert.KernelIdeal.Gen Cert.KernelIdeal.KHost
open Idealize.ShloMosaic Idealize.ShloMosaic.TcCoe Idealize.SL.Sem Idealize.ShloMosaic.StableHlo

/-- The features `h` of all 100000 nodes. -/
def feats (x0 : (⟨S20000x256, .f32⟩ : BufTy).Contents (Elt Ideal)) (x1 : (⟨S80000x256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) : (⟨S100000x128, .f32⟩ : BufTy).Contents (Elt Ideal) :=
  joinRows (Reg0.G x0 x4 (biasRow x5) x8) (Reg1.G x1 x6 (biasRow x7) x8)

/-- The node embeddings after the graph convolution and the positive part. -/
def embed (x0 : (⟨S20000x256, .f32⟩ : BufTy).Contents (Elt Ideal)) (x1 : (⟨S80000x256, .f32⟩ : BufTy).Contents (Elt Ideal)) (x2 : (⟨S2x1600000, .i32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) : (⟨S100000x128, .f32⟩ : BufTy).Contents (Elt Ideal) :=
  Reg2.G (aggK (feats x0 x1 x4 x5 x6 x7 x8) (normK x2) x2) (feats x0 x1 x4 x5 x6 x7 x8) (norm2K (normK x2)) (biasRow x9)

/-- The scores of the test edges. -/
def result (x0 : (⟨S20000x256, .f32⟩ : BufTy).Contents (Elt Ideal)) (x1 : (⟨S80000x256, .f32⟩ : BufTy).Contents (Elt Ideal)) (x2 : (⟨S2x1600000, .i32⟩ : BufTy).Contents (Elt Ideal)) (x3 : (⟨S2x1000000, .i32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) : (⟨S1000000, .f32⟩ : BufTy).Contents (Elt Ideal) :=
  scoreK (embed x0 x1 x2 x4 x5 x6 x7 x8 x9) x3

/-! ## Buffers a stretch does not write keep their contents -/

section Keep
variable {F : FTy → Type} [FloatOps F] (Wv : Valuation τ sig (Elt F))
theorem pre_arg0 : StableHlo.after hostOps0 Wv (Proc.devRef .tc main_arg0) = Wv (Proc.devRef .tc main_arg0) := by after_results
theorem pre_arg1 : StableHlo.after hostOps0 Wv (Proc.devRef .tc main_arg1) = Wv (Proc.devRef .tc main_arg1) := by after_results
theorem pre_arg2 : StableHlo.after hostOps0 Wv (Proc.devRef .tc main_arg2) = Wv (Proc.devRef .tc main_arg2) := by after_results
theorem pre_arg3 : StableHlo.after hostOps0 Wv (Proc.devRef .tc main_arg3) = Wv (Proc.devRef .tc main_arg3) := by after_results
theorem pre_arg4 : StableHlo.after hostOps0 Wv (Proc.devRef .tc main_arg4) = Wv (Proc.devRef .tc main_arg4) := by after_results
theorem pre_arg6 : StableHlo.after hostOps0 Wv (Proc.devRef .tc main_arg6) = Wv (Proc.devRef .tc main_arg6) := by after_results
theorem pre_arg8 : StableHlo.after hostOps0 Wv (Proc.devRef .tc main_arg8) = Wv (Proc.devRef .tc main_arg8) := by after_results
theorem mid_arg3 : StableHlo.after hostOps2 Wv (Proc.devRef .tc main_arg3) = Wv (Proc.devRef .tc main_arg3) := by after_results_simp
end Keep

variable (m : (ℓ : Loc nD τ sig) → Buf (Elt Ideal) ℓ) (ρ : Dev nD → PrngReg)

/-! ## The first region's entry and output -/

theorem V1_arg0 (c : Dev nD) : V1 m ρ c main_arg0 = m ((c : Thread nD τ).loc main_arg0) := pre_arg0 (W0 m ρ c)
theorem V1_arg1 (c : Dev nD) : V1 m ρ c main_arg1 = m ((c : Thread nD τ).loc main_arg1) := pre_arg1 (W0 m ρ c)
theorem V1_arg2 (c : Dev nD) : V1 m ρ c main_arg2 = m ((c : Thread nD τ).loc main_arg2) := pre_arg2 (W0 m ρ c)
theorem V1_arg3 (c : Dev nD) : V1 m ρ c main_arg3 = m ((c : Thread nD τ).loc main_arg3) := pre_arg3 (W0 m ρ c)
theorem V1_arg4 (c : Dev nD) : V1 m ρ c main_arg4 = m ((c : Thread nD τ).loc main_arg4) := pre_arg4 (W0 m ρ c)
theorem V1_arg6 (c : Dev nD) : V1 m ρ c main_arg6 = m ((c : Thread nD τ).loc main_arg6) := pre_arg6 (W0 m ρ c)
theorem V1_arg8 (c : Dev nD) : V1 m ρ c main_arg8 = m ((c : Thread nD τ).loc main_arg8) := pre_arg8 (W0 m ρ c)
theorem V1_v0 (c : Dev nD) : V1 m ρ c main_v0 = biasRow (m ((c : Thread nD τ).loc main_arg5)) := pre_v0 (W0 m ρ c)
theorem V1_v1 (c : Dev nD) : V1 m ρ c main_v1 = biasRow (m ((c : Thread nD τ).loc main_arg7)) := pre_v1 (W0 m ρ c)
theorem V1_v2 (c : Dev nD) : V1 m ρ c main_v2 = biasRow (m ((c : Thread nD τ).loc main_arg9)) := pre_v2 (W0 m ρ c)

theorem W2_v3 (c : Dev nD) : W2 m ρ c (Proc.devRef .tc main_v3)
    = Reg0.G (m ((c : Thread nD τ).loc main_arg0)) (m ((c : Thread nD τ).loc main_arg4)) (biasRow (m ((c : Thread nD τ).loc main_arg5))) (m ((c : Thread nD τ).loc main_arg8)) := by
  refine (W2_arr m ρ c 4).trans ((Reg0.final (V1 m ρ) c).trans ?_)
  show Reg0.G (V1 m ρ c main_arg0) (V1 m ρ c main_arg4) (V1 m ρ c main_v0) (V1 m ρ c main_arg8) = _
  rw [V1_arg0, V1_arg4, V1_v0, V1_arg8]

/-! ## The second region's entry and output -/

theorem V2_arg1 (c : Dev nD) : V2 m ρ c main_arg1 = (m ((c : Thread nD τ).loc main_arg1)) :=
  (W2_of_ne m ρ c main_arg1 (by decide)).trans (V1_arg1 m ρ c)
theorem V2_arg6 (c : Dev nD) : V2 m ρ c main_arg6 = (m ((c : Thread nD τ).loc main_arg6)) :=
  (W2_of_ne m ρ c main_arg6 (by decide)).trans (V1_arg6 m ρ c)
theorem V2_v1 (c : Dev nD) : V2 m ρ c main_v1 = biasRow (m ((c : Thread nD τ).loc main_arg7)) :=
  (W2_of_ne m ρ c main_v1 (by decide)).trans (V1_v1 m ρ c)
theorem V2_arg8 (c : Dev nD) : V2 m ρ c main_arg8 = (m ((c : Thread nD τ).loc main_arg8)) :=
  ((W2_arr m ρ c 3).trans (((dat0 (V1 m ρ) c).arrAt_in 3 rfl _).trans (A_eq0 (V1 m ρ) c 3))).trans (V1_arg8 m ρ c)

theorem W3_v4 (c : Dev nD) : W3 m ρ c (Proc.devRef .tc main_v4)
    = Reg1.G (m ((c : Thread nD τ).loc main_arg1)) (m ((c : Thread nD τ).loc main_arg6)) (biasRow (m ((c : Thread nD τ).loc main_arg7))) (m ((c : Thread nD τ).loc main_arg8)) := by
  refine (W3_arr m ρ c 4).trans ((Reg1.final (V2 m ρ) c).trans ?_)
  show Reg1.G (V2 m ρ c main_arg1) (V2 m ρ c main_arg6) (V2 m ρ c main_v1) (V2 m ρ c main_arg8) = _
  rw [V2_arg1, V2_arg6, V2_v1, V2_arg8]
theorem W3_v3 (c : Dev nD) : W3 m ρ c (Proc.devRef .tc main_v3)
    = Reg0.G (m ((c : Thread nD τ).loc main_arg0)) (m ((c : Thread nD τ).loc main_arg4)) (biasRow (m ((c : Thread nD τ).loc main_arg5))) (m ((c : Thread nD τ).loc main_arg8)) :=
  (W3_of_ne m ρ c main_v3 (by decide)).trans (W2_v3 m ρ c)
theorem W3_arg2 (c : Dev nD) : W3 m ρ c (Proc.devRef .tc main_arg2) = (m ((c : Thread nD τ).loc main_arg2)) :=
  (W3_of_ne m ρ c main_arg2 (by decide)).trans ((W2_of_ne m ρ c main_arg2 (by decide)).trans (V1_arg2 m ρ c))
theorem W3_arg3 (c : Dev nD) : W3 m ρ c (Proc.devRef .tc main_arg3) = (m ((c : Thread nD τ).loc main_arg3)) :=
  (W3_of_ne m ρ c main_arg3 (by decide)).trans ((W2_of_ne m ρ c main_arg3 (by decide)).trans (V1_arg3 m ρ c))
theorem W3_v2 (c : Dev nD) : W3 m ρ c (Proc.devRef .tc main_v2) = biasRow (m ((c : Thread nD τ).loc main_arg9)) :=
  (W3_of_ne m ρ c main_v2 (by decide)).trans ((W2_of_ne m ρ c main_v2 (by decide)).trans (V1_v2 m ρ c))

/-! ## The third region's entry and output -/

theorem V4_v5 (c : Dev nD) : V4 m ρ c main_v5
    = feats (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  refine (mid_v5 (W3 m ρ c)).trans ?_
  rw [W3_v3, W3_v4]; rfl
theorem V4_v53 (c : Dev nD) : V4 m ρ c main_v53 = norm2K (normK (m ((c : Thread nD τ).loc main_arg2))) := by
  refine (mid_v53 (W3 m ρ c)).trans ?_
  rw [W3_arg2]
theorem V4_v51 (c : Dev nD) : V4 m ρ c main_v51
    = aggK (feats (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (normK (m ((c : Thread nD τ).loc main_arg2))) (m ((c : Thread nD τ).loc main_arg2)) := by
  refine (mid_v51 (W3 m ρ c)).trans ?_
  rw [W3_v3, W3_v4, W3_arg2]; rfl
theorem V4_v2 (c : Dev nD) : V4 m ρ c main_v2 = biasRow (m ((c : Thread nD τ).loc main_arg9)) :=
  (mid_v2 (W3 m ρ c)).trans (W3_v2 m ρ c)

theorem W5_v54 (c : Dev nD) : W5 m ρ c (Proc.devRef .tc main_v54)
    = embed (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W5_arr m ρ c 4).trans ((Reg2.final (V4 m ρ) c).trans ?_)
  show Reg2.G (V4 m ρ c main_v51) (V4 m ρ c main_v5) (V4 m ρ c main_v53) (V4 m ρ c main_v2) = _
  rw [V4_v51, V4_v5, V4_v53, V4_v2]; rfl
theorem W5_arg3 (c : Dev nD) : W5 m ρ c (Proc.devRef .tc main_arg3) = (m ((c : Thread nD τ).loc main_arg3)) :=
  (W5_of_ne m ρ c main_arg3 (by decide)).trans ((mid_arg3 (W3 m ρ c)).trans (W3_arg3 m ρ c))

/-! ## The result -/

theorem W6_v77 (c : Dev nD) : W6 m ρ c (Proc.devRef .tc main_v77)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (tail_v77 (W5 m ρ c)).trans ?_
  rw [W5_v54, W5_arg3]; rfl

end Cert.KernelIdeal.KVal

end
-- ==== Proof.KRead.lean ====
/-
  The kernel program's intermediate arrays read at an index.

  A row of the joined features below 20000 is a row of the first node set, the others are rows of the second, each
  `linRow` of its input row; the bias enters as a one-row matrix whose entry `(0, k)` is the bias vector's entry `k`.
  An entry of the node embeddings is `max (agg + h·norm² + bias) 0` with `norm²` read off its column.
-/
import proofs.«172549_j60722247631463_2_alg».proof.Proof.KVal
import Idealize.ShloMosaic.Lib.Pipeline.Value

set_option maxRecDepth 16384

noncomputable section

namespace Cert.KernelIdeal.KRead

open Cert.KernelIdeal Cert.KernelIdeal.Gen Cert.KernelIdeal.KHost Cert.KernelIdeal.KVal Cert.Gcn
open Idealize.ShloMosaic Idealize.ShloMosaic.ValueIdx

/-- The bias row's entry `(0, k)` is the bias vector's entry `k`. -/
theorem biasRow_apply (b : (⟨S128, .f32⟩ : BufTy).Contents (Elt Ideal)) (k : Fin 128) :
    biasRow b (ix2 (0 : Fin 1) k) = b (ix1 k) := by
  unfold biasRow
  refine (shapeCast_addUnit_apply ![128] b shapeCasts_S128_S1x128 (ix2 (0 : Fin 1) k)).trans ?_
  exact congrArg b (funext fun a => by match a with | ⟨0, _⟩ => rfl)

/-- A row of the first node set. -/
theorem feats_lo (x0 : (⟨S20000x256, .f32⟩ : BufTy).Contents (Elt Ideal)) (x1 : (⟨S80000x256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) (i : S100000x128.Idx) (h : (i 0).val < 20000) :
    feats x0 x1 x4 x5 x6 x7 x8 i
      = linRow (fun q => x0 (ix2 (⟨(i 0).val, h⟩ : Fin 20000) q)) x4 (fun k => x5 (ix1 k)) x8 (⟨(i 1).val, idx2_lt1 i⟩ : Fin 128) := by
  unfold feats joinRows
  refine (concatenate_pair_apply_left (0 : Fin S100000x128.rank) _ _ concatenates_S20000x128_S80000x128_S100000x128_d0 i rfl
    (ix2 (⟨(i 0).val, h⟩ : Fin 20000) (⟨(i 1).val, idx2_lt1 i⟩ : Fin 128)) (fun b => by match b with | ⟨0, _⟩ => rfl | ⟨1, _⟩ => rfl)).trans ?_
  unfold Reg0.G
  exact congrArg (fun f => linRow _ x4 f x8 _) (funext fun k => biasRow_apply x5 k)

/-- A row of the second node set. -/
theorem feats_hi (x0 : (⟨S20000x256, .f32⟩ : BufTy).Contents (Elt Ideal)) (x1 : (⟨S80000x256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) (i : S100000x128.Idx) (h : 20000 ≤ (i 0).val) :
    feats x0 x1 x4 x5 x6 x7 x8 i
      = linRow (fun q => x1 (ix2 (⟨(i 0).val - 20000, by have := idx2_lt0 i; omega⟩ : Fin 80000) q)) x6 (fun k => x7 (ix1 k)) x8
          (⟨(i 1).val, idx2_lt1 i⟩ : Fin 128) := by
  unfold feats joinRows
  refine (concatenate_pair_apply_right (0 : Fin S100000x128.rank) _ _ concatenates_S20000x128_S80000x128_S100000x128_d0 i rfl rfl
    (ix2 (⟨(i 0).val - 20000, by have := idx2_lt0 i; omega⟩ : Fin 80000) (⟨(i 1).val, idx2_lt1 i⟩ : Fin 128))
    (fun b hb => by match b with | ⟨0, _⟩ => exact absurd rfl hb | ⟨1, _⟩ => rfl)
    (by show (i 0).val - 20000 + 20000 = (i 0).val; omega)).trans ?_
  unfold Reg1.G
  exact congrArg (fun f => linRow _ x6 f x8 _) (funext fun k => biasRow_apply x7 k)

/-- An entry of the node embeddings. -/
theorem embed_apply (A H : (⟨S100000x128, .f32⟩ : BufTy).Contents (Elt Ideal)) (N : (⟨S100000, .f32⟩ : BufTy).Contents (Elt Ideal))
    (b : (⟨S128, .f32⟩ : BufTy).Contents (Elt Ideal)) (i : S100000x128.Idx) :
    Reg2.G A H (norm2K N) (biasRow b) i
      = max (A i + H i * (N (ix1 (⟨(i 0).val, idx2_lt0 i⟩ : Fin 100000)) * N (ix1 (⟨(i 0).val, idx2_lt0 i⟩ : Fin 100000)))
          + b (ix1 (⟨(i 1).val, idx2_lt1 i⟩ : Fin 128))) (Ideal.ofBits .f32 0x00000000#32) := by
  unfold Reg2.G
  rw [biasRow_apply]
  refine congrArg (max · (Ideal.ofBits .f32 0x00000000#32)) (congrArg (· + b (ix1 _)) (congrArg (A i + H i * ·) ?_))
  unfold norm2K
  have key : ∀ y : (⟨S100000, .f32⟩ : BufTy).Contents (Elt Ideal),
      broadcastInDim S100000x1 ![0] bcast_S100000_S100000x1_0 y (ix2 (⟨(i 0).val, idx2_lt0 i⟩ : Fin 100000) (0 : Fin 1))
        = y (ix1 (⟨(i 0).val, idx2_lt0 i⟩ : Fin 100000)) := fun y =>
    broadcastInDim_apply _ bcast_S100000_S100000x1_0 y (ix2 (⟨(i 0).val, idx2_lt0 i⟩ : Fin 100000) (0 : Fin 1))
      (ix1 (⟨(i 0).val, idx2_lt0 i⟩ : Fin 100000)) (fun a => by
        match a with
        | ⟨0, _⟩ => show (i 0).val = if (100000 : Nat) = 1 then 0 else (i 0).val; rw [if_neg (by decide)])
  exact key _

end Cert.KernelIdeal.KRead

end
-- ==== Proof.RefVal.lean ====
/-
  The idealized reference's result is the kernel program's function of the ten arguments.

  Stage by stage: the reference's features `(relu(xd·W1+b1) ‖ relu(xm·W2+b2))·Wg` are, row by row, `linRow` of the
  input rows (a row of a product of a joined matrix is the product of that row); its degrees, counted from one,
  are the kernel's count from zero plus one; the weighted aggregation, the self-loop, bias and positive part, and
  the edge scores are the same operations on both sides, the kernel's passages through the 16-bit format being the
  identity on extended reals.
-/
import proofs.«172549_j60722247631463_2_alg».proof.Proof.Gen.ReferenceIdeal.Read
import proofs.«172549_j60722247631463_2_alg».proof.Proof.KRead
import Idealize.ShloMosaic.Lib.Pipeline.Value

set_option maxRecDepth 16384

noncomputable section

namespace Cert.ReferenceIdeal.RefVal

open Cert.ReferenceIdeal Cert.ReferenceIdeal.Gen Cert.ReferenceIdeal.Read Cert.Gcn
open Idealize.ShloMosaic Idealize.ShloMosaic.ValueIdx
open Cert.KernelIdeal (KHost.biasRow KHost.joinRows KHost.normK KHost.aggK KHost.norm2K KHost.scoreK KHost.wrapE KHost.srcE KHost.dstE
  KHost.coefE KHost.wrapT KHost.srcT KHost.dstT KVal.feats KVal.embed KVal.result KRead.feats_lo KRead.feats_hi KRead.embed_apply)

variable (x0 : (⟨S20000x256, .f32⟩ : BufTy).Contents (Elt Ideal)) (x1 : (⟨S80000x256, .f32⟩ : BufTy).Contents (Elt Ideal)) (x2 : (⟨S2x1600000, .i32⟩ : BufTy).Contents (Elt Ideal)) (x3 : (⟨S2x1000000, .i32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))

/-! ## The features -/

/-- The first node set's hidden layer at `(r, k)`. -/
theorem hid0_apply (r : Fin 20000) (k : Fin 128) :
    val_main_v4 (F := Ideal) x0 x4 x5 (ix2 r k)
      = max (∑ q : Fin 256, x0 (ix2 r q) * x4 (ix2 q k) + x5 (ix1 k)) (Ideal.ofBits .f32 0x00000000#32) := by
  rw [val_main_v4_apply, val_main_v3_apply, val_main_v0_apply, val_main_v2_apply, val_main_v1_apply, val_main_call0_v0_apply,
    val_main_call0_cst_apply]
  have e1 : ∀ q : Fin 256, lidx_main_v0 (ix2 r k) q = ix2 r q := fun q => funext fun a => by
    match a with | ⟨0, _⟩ => rfl | ⟨1, _⟩ => rfl
  have e2 : ∀ q : Fin 256, ridx_main_v0 (ix2 r k) q = ix2 q k := fun q => funext fun a => by
    match a with | ⟨0, _⟩ => rfl | ⟨1, _⟩ => rfl
  have e3 : idx_main_v1 (idx_main_v2 (ix2 r k)) = ix1 k := funext fun a => by match a with | ⟨0, _⟩ => rfl
  simp only [e1, e2, e3]
  rfl

/-- The second node set's hidden layer at `(r, k)`. -/
theorem hid1_apply (r : Fin 80000) (k : Fin 128) :
    val_main_v9 (F := Ideal) x1 x6 x7 (ix2 r k)
      = max (∑ q : Fin 256, x1 (ix2 r q) * x6 (ix2 q k) + x7 (ix1 k)) (Ideal.ofBits .f32 0x00000000#32) := by
  rw [val_main_v9_apply, val_main_v8_apply, val_main_v5_apply, val_main_v7_apply, val_main_v6_apply, val_main_call1_v0_apply,
    val_main_call1_cst_apply]
  have e1 : ∀ q : Fin 256, lidx_main_v5 (ix2 r k) q = ix2 r q := fun q => funext fun a => by
    match a with | ⟨0, _⟩ => rfl | ⟨1, _⟩ => rfl
  have e2 : ∀ q : Fin 256, ridx_main_v5 (ix2 r k) q = ix2 q k := fun q => funext fun a => by
    match a with | ⟨0, _⟩ => rfl | ⟨1, _⟩ => rfl
  have e3 : idx_main_v6 (idx_main_v7 (ix2 r k)) = ix1 k := funext fun a => by match a with | ⟨0, _⟩ => rfl
  simp only [e1, e2, e3]
  rfl

/-- The reference's features are the kernel program's, row by row. -/
theorem feats_eq : val_main_v15 (F := Ideal) x0 x1 x4 x5 x6 x7 x8 = KVal.feats x0 x1 x4 x5 x6 x7 x8 := by
  funext i
  rw [val_main_v15_apply]
  have er : ∀ k : Fin 128, ridx_main_v15 i k = ix2 k (⟨(i 1).val, idx2_lt1 i⟩ : Fin 128) := fun k => funext fun a => by
    match a with | ⟨0, _⟩ => rfl | ⟨1, _⟩ => rfl
  by_cases h : (i 0).val < 20000
  · rw [KRead.feats_lo x0 x1 x4 x5 x6 x7 x8 i h]
    unfold linRow
    refine Finset.sum_congr rfl fun k _ => ?_
    rw [er k]
    refine congrArg (· * x8 (ix2 k (⟨(i 1).val, idx2_lt1 i⟩ : Fin 128))) ?_
    unfold val_main_v10
    refine (concatenate_pair_apply_left (0 : Fin S100000x128.rank) _ _ concatenates_S20000x128_S80000x128_S100000x128_d0
      (lidx_main_v15 i k) rfl (ix2 (⟨(i 0).val, h⟩ : Fin 20000) k) (fun b => by match b with | ⟨0, _⟩ => rfl | ⟨1, _⟩ => rfl)).trans ?_
    exact hid0_apply x0 x4 x5 ⟨(i 0).val, h⟩ k
  · have h' : 20000 ≤ (i 0).val := Nat.le_of_not_lt h
    rw [KRead.feats_hi x0 x1 x4 x5 x6 x7 x8 i h']
    unfold linRow
    refine Finset.sum_congr rfl fun k _ => ?_
    rw [er k]
    refine congrArg (· * x8 (ix2 k (⟨(i 1).val, idx2_lt1 i⟩ : Fin 128))) ?_
    unfold val_main_v10
    refine (concatenate_pair_apply_right (0 : Fin S100000x128.rank) _ _ concatenates_S20000x128_S80000x128_S100000x128_d0
      (lidx_main_v15 i k) rfl rfl (ix2 (⟨(i 0).val - 20000, by have := idx2_lt0 i; omega⟩ : Fin 80000) k)
      (fun b hb => by match b with | ⟨0, _⟩ => exact absurd rfl hb | ⟨1, _⟩ => rfl)
      (by show (i 0).val - 20000 + 20000 = (i 0).val; omega)).trans ?_
    exact hid1_apply x1 x6 x7 ⟨(i 0).val - 20000, by have := idx2_lt0 i; omega⟩ k

/-! ## The degrees -/

/-- A scalar spread over the node axis reads as that scalar. -/
theorem splat_apply (w : BitVec 32) (i : S100000.Idx) :
    broadcastInDim S100000 ![] bcast_S_S100000 (constant (F := Ideal) S_ .f32 w) i = Ideal.ofBits .f32 w :=
  (broadcastInDim_apply _ bcast_S_S100000 (constant (F := Ideal) S_ .f32 w) i ix0 (fun a => a.elim0)).trans (constant_apply (s := S_) (φ := .f32) w ix0)

/-- Incoming edges counted from one are those counted from zero, plus one. -/
theorem count_from_one (idx : (⟨S1600000x1, .i32⟩ : BufTy).Contents (Elt Ideal)) (u : (⟨S1600000, .f32⟩ : BufTy).Contents (Elt Ideal)) :
    Host.scatterAdd scatter_S100000_S1600000x1_S1600000_n_0_0_1
        (broadcastInDim S100000 ![] bcast_S_S100000 (constant (F := Ideal) S_ .f32 0x3F800000#32)) idx u
      = addf (Host.scatterAdd scatter_S100000_S1600000x1_S1600000_n_0_0_1
          (broadcastInDim S100000 ![] bcast_S_S100000 (constant (F := Ideal) S_ .f32 0x00000000#32)) idx u)
          (broadcastInDim S100000 ![] bcast_S_S100000 (constant (F := Ideal) S_ .f32 0x3F800000#32)) :=
  scatterAdd_shift scatter_S100000_S1600000x1_S1600000_n_0_0_1
    (broadcastInDim S100000 ![] bcast_S_S100000 (constant (F := Ideal) S_ .f32 0x00000000#32))
    (broadcastInDim S100000 ![] bcast_S_S100000 (constant (F := Ideal) S_ .f32 0x3F800000#32))
    (broadcastInDim S100000 ![] bcast_S_S100000 (constant (F := Ideal) S_ .f32 0x3F800000#32)) idx u (Ideal.ofBits .f32 0x3F800000#32)
    (fun j => (splat_apply 0x00000000#32 j).trans Ideal.ofBits_zero_f32) (fun j => splat_apply 0x3F800000#32 j)
    (fun j => splat_apply 0x3F800000#32 j)
/-- So the two programs take the inverse square root of the same degrees. -/
theorem norm_eq : val_main_v25 (F := Ideal) x2 = KHost.normK x2 := by
  unfold val_main_v25 val_main_v24 val_main_v16 val_main_cst val_main_v23 val_main_cst_1
  rw [count_from_one]
  unfold val_main_v22 val_main_v21 val_main_v18 val_main_v20 val_main_v19 val_main_c_0 val_main_v17 val_main_c val_main_v14 val_main_v13
  unfold KHost.normK KHost.wrapE KHost.dstE
  rfl

/-! ## The aggregation, the embeddings, the scores -/

/-- The reference's aggregated messages are the kernel program's function of the features and `norm`. -/
theorem agg_eq : val_main_v53 (F := Ideal) x0 x1 x2 x4 x5 x6 x7 x8
    = KHost.aggK (val_main_v15 (F := Ideal) x0 x1 x4 x5 x6 x7 x8) (val_main_v25 (F := Ideal) x2) x2 := by
  unfold val_main_v53 val_main_v51 val_main_cst_8 val_main_v52 val_main_v50 val_main_v48 val_main_v47 val_main_v46 val_main_v43
    val_main_v42 val_main_c_6 val_main_v45 val_main_v44 val_main_c_7 val_main_v49 val_main_v41 val_main_v40 val_main_v32 val_main_v31
    val_main_v30 val_main_v27 val_main_v26 val_main_c_2 val_main_v29 val_main_v28 val_main_c_3 val_main_v39 val_main_v38 val_main_v37
    val_main_v34 val_main_v33 val_main_c_4 val_main_v36 val_main_v35 val_main_c_5 val_main_v14 val_main_v13 val_main_v12 val_main_v11
  unfold KHost.aggK KHost.coefE KHost.wrapE KHost.srcE KHost.dstE
  rfl

/-- The node embeddings agree, entry by entry. -/
theorem embed_eq : val_main_v62 (F := Ideal) x0 x1 x2 x4 x5 x6 x7 x8 x9 = KVal.embed x0 x1 x2 x4 x5 x6 x7 x8 x9 := by
  funext i
  rw [val_main_v62_apply, val_main_v61_apply, val_main_v58_apply, val_main_v57_apply, val_main_v56_apply, val_main_v55_apply,
    val_main_v54_apply, val_main_v60_apply, val_main_v59_apply, val_main_call2_v0_apply, val_main_call2_cst_apply]
  rw [agg_eq, feats_eq, norm_eq]
  unfold KVal.embed
  rw [KRead.embed_apply]
  have e1 : idx_main_v55 (idx_main_v56 i) = ix1 (⟨(i 0).val, idx2_lt0 i⟩ : Fin 100000) := funext fun a => by
    match a with | ⟨0, _⟩ => rfl
  have e2 : idx_main_v59 (idx_main_v60 i) = ix1 (⟨(i 1).val, idx2_lt1 i⟩ : Fin 128) := funext fun a => by
    match a with | ⟨0, _⟩ => rfl
  rw [e1, e2]
  rfl

/-- The scores are the same function of the embeddings and the test edges. -/
theorem score_eq : val_main_v82 (F := Ideal) x0 x1 x2 x3 x4 x5 x6 x7 x8 x9 = KHost.scoreK (val_main_v62 (F := Ideal) x0 x1 x2 x4 x5 x6 x7 x8 x9) x3 := by
  unfold val_main_v82 val_main_cst_13 val_main_v81 val_main_v71 val_main_v70 val_main_v69 val_main_v66 val_main_v65 val_main_c_9
    val_main_v68 val_main_v67 val_main_c_10 val_main_v80 val_main_v79 val_main_v78 val_main_v75 val_main_v74 val_main_c_11
    val_main_v77 val_main_v76 val_main_c_12 val_main_v64 val_main_v63 val_main_v73 val_main_v72
  unfold KHost.scoreK KHost.wrapT KHost.srcT KHost.dstT
  rfl

/-- The reference's result is the kernel program's function of the arguments. -/
theorem result_eq : val_main_v82 (F := Ideal) x0 x1 x2 x3 x4 x5 x6 x7 x8 x9 = KVal.result x0 x1 x2 x3 x4 x5 x6 x7 x8 x9 := by
  rw [score_eq, embed_eq]
  rfl

end Cert.ReferenceIdeal.RefVal

end
-- ==== Proof.lean ====
/-
  The certificate: a graph-convolution link predictor on TPU against its jnp reference, over the extended reals.

  Kernel program: two fused kernels compute `relu(x·W + b)·Wg` for the two node sets, 4000 rows at a time; the host
  joins them into `h`, forms the symmetric normalisation `norm = (deg+1)^(-1/2)` from the edge list and aggregates
  `norm[src]·norm[dst]·h[src]` into the destination nodes; a third kernel adds the self loop `h·norm²` and the bias and
  takes the positive part; the host scores each test edge by the inner product of its end nodes' rows.
  Reference: the same network with `(relu(xd·W1+b1) ‖ relu(xm·W2+b2))·Wg` computed as one product and the degrees
  counted from one.
  The three programs run without fault and leave their arguments unchanged (the generated frames; the reference's
  frame is its run with the result dropped).  The idealization rewrote nothing.  At the extended reals both results
  are one function of the arguments: a row of the joined product is the product of the row, a count from zero
  plus one is the count from one, and a passage through the 16-bit format is the identity.  Finiteness of the
  inputs is not used.
-/
import proofs.«172549_j60722247631463_2_alg».proof.Defs
import proofs.«172549_j60722247631463_2_alg».proof.Proof.Gen.Kernel
import proofs.«172549_j60722247631463_2_alg».proof.Proof.Gen.Kernel.Skeleton
import proofs.«172549_j60722247631463_2_alg».proof.Proof.Gen.Kernel.Launch
import proofs.«172549_j60722247631463_2_alg».proof.Proof.Gen.Kernel.Points
import proofs.«172549_j60722247631463_2_alg».proof.Proof.Gen.Kernel.Frame
import proofs.«172549_j60722247631463_2_alg».proof.Proof.Gen.KernelIdeal
import proofs.«172549_j60722247631463_2_alg».proof.Proof.Gen.KernelIdeal.Skeleton
import proofs.«172549_j60722247631463_2_alg».proof.Proof.Gen.KernelIdeal.Launch
import proofs.«172549_j60722247631463_2_alg».proof.Proof.Gen.KernelIdeal.Points
import proofs.«172549_j60722247631463_2_alg».proof.Proof.Gen.KernelIdeal.Frame
import proofs.«172549_j60722247631463_2_alg».proof.Proof.Gen.ReferenceIdeal
import proofs.«172549_j60722247631463_2_alg».proof.Proof.Gen.Pre_finite_inputs
import proofs.«172549_j60722247631463_2_alg».proof.Proof.Gen.ReferenceIdeal.Run
import proofs.«172549_j60722247631463_2_alg».proof.Proof.Gen.ReferenceIdeal.Read
import proofs.«172549_j60722247631463_2_alg».proof.Proof.KRun
import proofs.«172549_j60722247631463_2_alg».proof.Proof.KVal
import proofs.«172549_j60722247631463_2_alg».proof.Proof.RefVal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the scores at one function of the arguments. -/
theorem algebraic : Cert.algebraic_KernelIdeal_ReferenceIdeal := by
  intro m ρ m' ρ' _ hagree
  refine ⟨fun c => Cert.KernelIdeal.KVal.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KVal.W6_v77 m ρ c), (h c).2⟩)
      (Cert.KernelIdeal.KRun.run_res (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v82_eq, Cert.ReferenceIdeal.RefVal.result_eq]
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
